-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩

class Facts : Prop where
  bcast_S_S4000000x4 : S_.BroadcastsInDim S4000000x4 (![] : Fin 0 → Fin S4000000x4.rank)
  reducesTo_S4000000x4_S_d0_1 : S4000000x4.ReducesTo [0, 1] S_
  h_S_ : 0 < S_.numel
  bcast_S_S4000000x3 : S_.BroadcastsInDim S4000000x3 (![] : Fin 0 → Fin S4000000x3.rank)
  reducesTo_S4000000x3_S_d0_1 : S4000000x3.ReducesTo [0, 1] S_
  reducesTo_S4000000x4_S4000000_d1 : S4000000x4.ReducesTo [1] S4000000
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x4 .f32) (main_arg1 : FVec F S4000000x3 .f32) : IVec S_ 1 :=
  let main_v0 : FVec F S4000000x4 .f32 := Host.absf main_arg0
  let main_cst : FVec F S_ .f32 := constant S_ .f32 0x7F800000#32
  let main_v1 : FVec F S4000000x4 .f32 := broadcastInDim S4000000x4 ![] bcast_S_S4000000x4 main_cst
  let main_v2 : IVec S4000000x4 1 := cmpf .olt main_v0 main_v1
  let main_c : IVec S_ 1 := constantI S_ 1 1#1
  let main_v3 : IVec S_ 1 := (fun x v => Host.reduce IntOp.andi x v reducesTo_S4000000x4_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := mulf main_arg0 main_arg0
  let main_cst_2 : FVec F S_ .f32 := constant S_ .f32 0x00000000#32
  let main_v10 : FVec F S4000000 .f32 := (fun x v => Host.reduceAdd x v reducesTo_S4000000x4_S4000000_d1 h_S_) main_v9 main_cst_2
  let main_cst_3 : FVec F S_ .f32 := constant S_ .f32 0x00000000#32
  let main_v11 : FVec F S4000000 .f32 := broadcastInDim S4000000 ![] bcast_S_S4000000 main_cst_3
  let main_v12 : IVec S4000000 1 := cmpf .ogt main_v10 main_v11
  let main_c_4 : IVec S_ 1 := constantI S_ 1 1#1
  let main_v13 : IVec S_ 1 := (fun x v => Host.reduce IntOp.andi x v reducesTo_S4000000_S_d0 h_S_) main_v12 main_c_4
  let main_v14 : IVec S_ 1 := andi main_v8 main_v13
  main_v14
-- ==== Kernel.lean ====
abbrev S4000000x4 : Shape := ⟨2, ![4000000, 4]⟩
abbrev S4000000x3 : Shape := ⟨2, ![4000000, 3]⟩
abbrev S_ : Shape := ⟨0, ![]⟩
abbrev S4063232x4 : Shape := ⟨2, ![4063232, 4]⟩
abbrev S4063232x3 : Shape := ⟨2, ![4063232, 3]⟩
abbrev S4x4063232 : Shape := ⟨2, ![4, 4063232]⟩
abbrev S4x31744x128 : Shape := ⟨3, ![4, 31744, 128]⟩
abbrev S3x4063232 : Shape := ⟨2, ![3, 4063232]⟩
abbrev S3x31744x128 : Shape := ⟨3, ![3, 31744, 128]⟩
abbrev S9x31744x128 : Shape := ⟨3, ![9, 31744, 128]⟩
abbrev S4x512x128 : Shape := ⟨3, ![4, 512, 128]⟩
abbrev S3x512x128 : Shape := ⟨3, ![3, 512, 128]⟩
abbrev S9x512x128 : Shape := ⟨3, ![9, 512, 128]⟩
abbrev S1x512x128 : Shape := ⟨3, ![1, 512, 128]⟩
abbrev S512x128 : Shape := ⟨2, ![512, 128]⟩
abbrev S9x4063232 : Shape := ⟨2, ![9, 4063232]⟩
abbrev S4063232x9 : Shape := ⟨2, ![4063232, 9]⟩
abbrev S4000000x9 : Shape := ⟨2, ![4000000, 9]⟩
abbrev S4000000x3x3 : Shape := ⟨3, ![4000000, 3, 3]⟩

abbrev nBuf : Space → Nat
  | .hbm => 17
  | .vmem => 6
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S_, .i32⟩
  | .hbm, ⟨3, _⟩ => ⟨S_, .f32⟩
  | .hbm, ⟨4, _⟩ => ⟨S4063232x4, .f32⟩
  | .hbm, ⟨5, _⟩ => ⟨S_, .i32⟩
  | .hbm, ⟨6, _⟩ => ⟨S_, .f32⟩
  | .hbm, ⟨7, _⟩ => ⟨S4063232x3, .f32⟩
  | .hbm, ⟨8, _⟩ => ⟨S4x4063232, .f32⟩
  | .hbm, ⟨9, _⟩ => ⟨S4x31744x128, .f32⟩
  | .hbm, ⟨10, _⟩ => ⟨S3x4063232, .f32⟩
  | .hbm, ⟨11, _⟩ => ⟨S3x31744x128, .f32⟩
  | .hbm, ⟨12, _⟩ => ⟨S9x31744x128, .f32⟩
  | .hbm, ⟨13, _⟩ => ⟨S9x4063232, .f32⟩
  | .hbm, ⟨14, _⟩ => ⟨S4063232x9, .f32⟩
  | .hbm, ⟨15, _⟩ => ⟨S4000000x9, .f32⟩
  | .hbm, ⟨16, _⟩ => ⟨S4000000x3x3, .f32⟩
  | .local _ .vmem, ⟨0, _⟩ => ⟨S4x512x128, .f32⟩
  | .local _ .vmem, ⟨1, _⟩ => ⟨S4x512x128, .f32⟩
  | .local _ .vmem, ⟨2, _⟩ => ⟨S3x512x128, .f32⟩
  | .local _ .vmem, ⟨3, _⟩ => ⟨S3x512x128, .f32⟩
  | .local _ .vmem, ⟨4, _⟩ => ⟨S9x512x128, .f32⟩
  | .local _ .vmem, ⟨5, _⟩ => ⟨S9x512x128, .f32⟩
  | _, _ => ⟨S4000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![62], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4000000x4_S4063232x4_0632320_000 : S4000000x4.Pads (![0, 0] : Fin 2 → Nat) ![63232, 0] ![0, 0] S4063232x4
  h_S_ : 0 < S_.numel
  pads_S4000000x3_S4063232x3_0632320_000 : S4000000x3.Pads (![0, 0] : Fin 2 → Nat) ![63232, 0] ![0, 0] S4063232x3
  transposes_S4063232x4_S4x4063232_1_0 : S4063232x4.Transposes [1, 0] S4x4063232
  shapeCasts_S4x4063232_S4x31744x128 : S4x4063232.ShapeCasts S4x31744x128
  transposes_S4063232x3_S3x4063232_1_0 : S4063232x3.Transposes [1, 0] S3x4063232
  shapeCasts_S3x4063232_S3x31744x128 : S3x4063232.ShapeCasts S3x31744x128
  inb_S4x512x128_S1x512x128_0_0_0 : ∀ a, (![0, 0, 0] : Fin 3 → Nat) a + S1x512x128.size a ≤ S4x512x128.size a
  h_S1x512x128 : 0 < S1x512x128.numel
  shapeCasts_S1x512x128_S512x128 : S1x512x128.ShapeCasts S512x128
  inb_S4x512x128_S1x512x128_1_0_0 : ∀ a, (![1, 0, 0] : Fin 3 → Nat) a + S1x512x128.size a ≤ S4x512x128.size a
  inb_S4x512x128_S1x512x128_2_0_0 : ∀ a, (![2, 0, 0] : Fin 3 → Nat) a + S1x512x128.size a ≤ S4x512x128.size a
  inb_S4x512x128_S1x512x128_3_0_0 : ∀ a, (![3, 0, 0] : Fin 3 → Nat) a + S1x512x128.size a ≤ S4x512x128.size a
  inb_S3x512x128_S1x512x128_0_0_0 : ∀ a, (![0, 0, 0] : Fin 3 → Nat) a + S1x512x128.size a ≤ S3x512x128.size a
  inb_S3x512x128_S1x512x128_1_0_0 : ∀ a, (![1, 0, 0] : Fin 3 → Nat) a + S1x512x128.size a ≤ S3x512x128.size a
  inb_S3x512x128_S1x512x128_2_0_0 : ∀ a, (![2, 0, 0] : Fin 3 → Nat) a + S1x512x128.size a ≤ S3x512x128.size a
  inb_S9x512x128_S1x512x128_0_0_0 : ∀ a, (![0, 0, 0] : Fin 3 → Nat) a + S1x512x128.size a ≤ S9x512x128.size a
  shapeCasts_S512x128_S1x512x128 : S512x128.ShapeCasts S1x512x128
  inb_S9x512x128_S1x512x128_1_0_0 : ∀ a, (![1, 0, 0] : Fin 3 → Nat) a + S1x512x128.size a ≤ S9x512x128.size a
  inb_S9x512x128_S1x512x128_2_0_0 : ∀ a, (![2, 0, 0] : Fin 3 → Nat) a + S1x512x128.size a ≤ S9x512x128.size a
  inb_S9x512x128_S1x512x128_3_0_0 : ∀ a, (![3, 0, 0] : Fin 3 → Nat) a + S1x512x128.size a ≤ S9x512x128.size a
  inb_S9x512x128_S1x512x128_4_0_0 : ∀ a, (![4, 0, 0] : Fin 3 → Nat) a + S1x512x128.size a ≤ S9x512x128.size a
  inb_S9x512x128_S1x512x128_5_0_0 : ∀ a, (![5, 0, 0] : Fin 3 → Nat) a + S1x512x128.size a ≤ S9x512x128.size a
  inb_S9x512x128_S1x512x128_6_0_0 : ∀ a, (![6, 0, 0] : Fin 3 → Nat) a + S1x512x128.size a ≤ S9x512x128.size a
  inb_S9x512x128_S1x512x128_7_0_0 : ∀ a, (![7, 0, 0] : Fin 3 → Nat) a + S1x512x128.size a ≤ S9x512x128.size a
  inb_S9x512x128_S1x512x128_8_0_0 : ∀ a, (![8, 0, 0] : Fin 3 → Nat) a + S1x512x128.size a ≤ S9x512x128.size a
  shapeCasts_S9x31744x128_S9x4063232 : S9x31744x128.ShapeCasts S9x4063232
  transposes_S9x4063232_S4063232x9_1_0 : S9x4063232.Transposes [1, 0] S4063232x9
  slices_S4063232x9_S4000000x9_0_0 : S4063232x9.Slices ![0, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x128.size a ≤ S4x31744x128.size a
  hwx0_0 : ∀ i : grid0.Coords, EltTy.bits .f32 = 32 ∨ (Rect.block (s := S4x31744x128) S4x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x512x128.size a ≤ S3x31744x128.size a
  hwx0_1 : ∀ i : grid0.Coords, EltTy.bits .f32 = 32 ∨ (Rect.block (s := S3x31744x128) S3x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x512x128.size a ≤ S9x31744x128.size a
  hwx0_2 : ∀ i : grid0.Coords, EltTy.bits .f32 = 32 ∨ (Rect.block (s := S9x31744x128) S9x512x128.size (cc0_transform_2 i) (hinb0_2 i)).WholeWords (EltTy.packing .f32)

variable [Facts₀]

abbrev win0_0 : Pipeline.Window sig grid0 :=
  Pipeline.Window.ofSpec (Memref.whole main_v3) S4x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S9x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x4 : Shape := ⟨2, ![4000000, 4]⟩
abbrev S4000000x3 : Shape := ⟨2, ![4000000, 3]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 95
  | .vmem => 0
  | .smem => 0
  | _ => 0

abbrev bufTy : (tb : Table) → Fin (tcTables nBuf tb) → BufTy
  | .hbm, ⟨0, _⟩ => ⟨S4000000x4, .f32⟩
  | .hbm, ⟨1, _⟩ => ⟨S4000000x3, .f32⟩
  | .hbm, ⟨2, _⟩ => ⟨S4000000x4, .f32⟩
  | .hbm, ⟨3, _⟩ => ⟨S_, .f32⟩
  | .hbm, ⟨4, _⟩ => ⟨S4000000, .f32⟩
  | .hbm, ⟨5, _⟩ => ⟨S4000000x1, .f32⟩
  | .hbm, ⟨6, _⟩ => ⟨S4000000x1, .f32⟩
  | .hbm, ⟨7, _⟩ => ⟨S4000000x4, .f32⟩
  | .hbm, ⟨8, _⟩ => ⟨S4000000x4, .f32⟩
  | .hbm, ⟨9, _⟩ => ⟨S4000000x1, .f32⟩
  | .hbm, ⟨10, _⟩ => ⟨S4000000, .f32⟩
  | .hbm, ⟨11, _⟩ => ⟨S4000000x1, .f32⟩
  | .hbm, ⟨12, _⟩ => ⟨S4000000, .f32⟩
  | .hbm, ⟨13, _⟩ => ⟨S4000000x1, .f32⟩
  | .hbm, ⟨14, _⟩ => ⟨S4000000, .f32⟩
  | .hbm, ⟨15, _⟩ => ⟨S4000000x1, .f32⟩
  | .hbm, ⟨16, _⟩ => ⟨S4000000, .f32⟩
  | .hbm, ⟨17, _⟩ => ⟨S4000000, .f32⟩
  | .hbm, ⟨18, _⟩ => ⟨S4000000, .f32⟩
  | .hbm, ⟨19, _⟩ => ⟨S4000000, .f32⟩
  | .hbm, ⟨20, _⟩ => ⟨S_, .f32⟩
  | .hbm, ⟨21, _⟩ => ⟨S4000000, .f32⟩
  | .hbm, ⟨22, _⟩ => ⟨S4000000, .f32⟩
  | .hbm, ⟨23, _⟩ => ⟨S_, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S_, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S4000000, .f32⟩
  | .hbm, ⟨35, _⟩ => ⟨S_, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S4000000, .f32⟩
  | .hbm, ⟨41, _⟩ => ⟨S_, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S4000000, .f32⟩
  | .hbm, ⟨47, _⟩ => ⟨S_, .f32⟩
  | .hbm, ⟨48, _⟩ => ⟨S4000000, .f32⟩
  | .hbm, ⟨49, _⟩ => ⟨S4000000, .f32⟩
  | .hbm, ⟨50, _⟩ => ⟨S_, .f32⟩
  | .hbm, ⟨51, _⟩ => ⟨S4000000, .f32⟩
  | .hbm, ⟨52, _⟩ => ⟨S4000000, .f32⟩
  | .hbm, ⟨53, _⟩ => ⟨S4000000, .f32⟩
  | .hbm, ⟨54, _⟩ => ⟨S4000000, .f32⟩
  | .hbm, ⟨55, _⟩ => ⟨S4000000, .f32⟩
  | .hbm, ⟨56, _⟩ => ⟨S_, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S_, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S4000000, .f32⟩
  | .hbm, ⟨68, _⟩ => ⟨S_, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S4000000, .f32⟩
  | .hbm, ⟨77, _⟩ => ⟨S_, .f32⟩
  | .hbm, ⟨78, _⟩ => ⟨S4000000, .f32⟩
  | .hbm, ⟨79, _⟩ => ⟨S4000000, .f32⟩
  | .hbm, ⟨80, _⟩ => ⟨S4000000x1, .f32⟩
  | .hbm, ⟨81, _⟩ => ⟨S4000000x1, .f32⟩
  | .hbm, ⟨82, _⟩ => ⟨S4000000x1, .f32⟩
  | .hbm, ⟨83, _⟩ => ⟨S4000000x1, .f32⟩
  | .hbm, ⟨84, _⟩ => ⟨S4000000x1, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x9, .f32⟩
  | .hbm, ⟨90, _⟩ => ⟨S4000000x3x3, .f32⟩
  | .hbm, ⟨91, _⟩ => ⟨S4000000x1x3, .f32⟩
  | .hbm, ⟨92, _⟩ => ⟨S4000000x3x3, .f32⟩
  | .hbm, ⟨93, _⟩ => ⟨S4000000x3x3, .f32⟩
  | .hbm, ⟨94, _⟩ => ⟨S4000000x3x3, .f32⟩
  | _, _ => ⟨S4000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.RowCov.lean ====
/-
  The mathematics of ONE row, over the extended reals, with no program in sight.

  A row is a quaternion `q = (w, x, y, z)` and a scale `s = (s₀, s₁, s₂)`. From a quaternion `(a, b, c, d)`
  the nine entries `rot a b c d i j` are those of the rotation matrix of a unit quaternion; `mat` scales
  column `j` by `s j`; `cov i k` is the entry `(i, k)` of `M Mᵀ`, the sum over `j` of `M i j · M k j`
  taken left to right.

  Two spellings of the normalised quaternion: `scaled q c = q c · rsqrt (w² + x² + y² + z²)` and
  `divided q c = q c / sqrt (0 + ∑ₖ qₖ²)`. On the extended reals they differ at the zero quaternion (the first
  is `0 · ⊤ = 0`, the second `0 / 0`); `scaled_eq_divided` says they agree whenever the four components are
  real numbers and the sum of their squares is positive: then the sum is a positive real `S`, the reciprocal
  square root is the real `(√S)⁻¹`, and dividing by the nonzero real `√S` is multiplying by `(√S)⁻¹`.
-/
import Idealize.ShloMosaic.PureOps.Ideal
import Idealize.ShloMosaic.PureOps.Ideal.Laws
import Idealize.ShloMosaic.Lib.ValueIdx

noncomputable section

namespace Cert.RowCov

open Idealize.ShloMosaic

/-- The two float literals of the rotation formulas, kept as the words both programs print. -/
abbrev two : EReal := Ideal.ofBits .f32 0x40000000#32
abbrev one : EReal := Ideal.ofBits .f32 0x3F800000#32

/-- Entry `(i, j)` of the rotation matrix written from the quaternion `(a, b, c, d) = (w, x, y, z)`. -/
def rot (a b c d : EReal) : Fin 3 → Fin 3 → EReal :=
  ![![one - two * (c * c + d * d), two * (b * c - a * d), two * (b * d + a * c)],
    ![two * (b * c + a * d), one - two * (b * b + d * d), two * (c * d - a * b)],
    ![two * (b * d - a * c), two * (c * d + a * b), one - two * (b * b + c * c)]]

/-- The rotation with column `j` scaled by `s j`. -/
def mat (a b c d : EReal) (s : Fin 3 → EReal) (i j : Fin 3) : EReal := rot a b c d i j * s j

/-- Entry `(i, k)` of `M Mᵀ`: the three products added left to right. -/
def cov (a b c d : EReal) (s : Fin 3 → EReal) (i k : Fin 3) : EReal :=
  mat a b c d s i 0 * mat a b c d s k 0 + mat a b c d s i 1 * mat a b c d s k 1 + mat a b c d s i 2 * mat a b c d s k 2

/-- The sum of the four squares, added left to right. -/
def sumsq (q : Fin 4 → EReal) : EReal := q 0 * q 0 + q 1 * q 1 + q 2 * q 2 + q 3 * q 3

/-- A component times the reciprocal square root of the sum of squares. -/
def scaled (q : Fin 4 → EReal) (c : Fin 4) : EReal := q c * Ideal.rsqrt (sumsq q)

/-- A component divided by the square root of zero plus the sum of squares. -/
def divided (q : Fin 4 → EReal) (c : Fin 4) : EReal :=
  Ideal.div (q c) (Ideal.sqrt (Ideal.ofBits .f32 0x00000000#32 + ∑ k : Fin 4, q k * q k))

/-- The covariance entry of a row, normalised the first way and the second way. -/
def covScaled (q : Fin 4 → EReal) (s : Fin 3 → EReal) (i k : Fin 3) : EReal :=
  cov (scaled q 0) (scaled q 1) (scaled q 2) (scaled q 3) s i k
def covDivided (q : Fin 4 → EReal) (s : Fin 3 → EReal) (i k : Fin 3) : EReal :=
  cov (divided q 0) (divided q 1) (divided q 2) (divided q 3) s i k

/-- Zero plus the sum over the four components is the left-to-right sum. -/
theorem zero_add_sum (q : Fin 4 → EReal) :
    Ideal.ofBits .f32 0x00000000#32 + ∑ k : Fin 4, q k * q k = sumsq q := by
  rw [Ideal.ofBits_zero_f32, zero_add, Fin.sum_univ_four]; rfl

/-- For real components with a positive sum of squares the two normalisations are one number. -/
theorem scaled_eq_divided (q : Fin 4 → EReal) (hreal : ∀ c, ∃ r : ℝ, q c = (r : EReal))
    (hpos : Ideal.ofBits .f32 0x00000000#32 < Ideal.ofBits .f32 0x00000000#32 + ∑ k : Fin 4, q k * q k) (c : Fin 4) :
    scaled q c = divided q c := by
  unfold scaled divided
  rw [zero_add_sum] at hpos ⊢
  rw [Ideal.ofBits_zero_f32] at hpos
  choose r hr using hreal
  have hS : sumsq q = ((r 0 * r 0 + r 1 * r 1 + r 2 * r 2 + r 3 * r 3 : ℝ) : EReal) := by
    unfold sumsq; rw [hr 0, hr 1, hr 2, hr 3]; push_cast; rfl
  rw [hS] at hpos ⊢
  have hp : 0 < r 0 * r 0 + r 1 * r 1 + r 2 * r 2 + r 3 * r 3 := by exact_mod_cast hpos
  have hne : Real.sqrt (r 0 * r 0 + r 1 * r 1 + r 2 * r 2 + r 3 * r 3) ≠ 0 := (Real.sqrt_pos.mpr hp).ne'
  rw [Ideal.rsqrt_coe, if_neg (not_lt.mpr hp.le), if_neg hp.ne', Ideal.sqrt_coe, if_neg (not_lt.mpr hp.le),
    Ideal.div_coe hne, one_div]

/-- So the covariance entries agree. -/
theorem covScaled_eq_covDivided (q : Fin 4 → EReal) (s : Fin 3 → EReal) (hreal : ∀ c, ∃ r : ℝ, q c = (r : EReal))
    (hpos : Ideal.ofBits .f32 0x00000000#32 < Ideal.ofBits .f32 0x00000000#32 + ∑ k : Fin 4, q k * q k) (i k : Fin 3) :
    covScaled q s i k = covDivided q s i k := by
  unfold covScaled covDivided
  rw [scaled_eq_divided q hreal hpos 0, scaled_eq_divided q hreal hpos 1, scaled_eq_divided q hreal hpos 2,
    scaled_eq_divided q hreal hpos 3]

/-! ## The arrays: one quaternion and one scale per row, one 3×3 matrix per row -/

/-- Row `n` of the `[4000000, 4]` array of quaternions, and of the `[4000000, 3]` array of scales. -/
def quat (x0 : (⟨2, ![4000000, 4]⟩ : Shape).Idx → EReal) (n : Fin 4000000) : Fin 4 → EReal := fun c => x0 (ValueIdx.ix2 n c)
def scl (x1 : (⟨2, ![4000000, 3]⟩ : Shape).Idx → EReal) (n : Fin 4000000) : Fin 3 → EReal := fun j => x1 (ValueIdx.ix2 n j)

/-- The `[4000000, 3, 3]` result: entry `(n, i, k)` is the covariance entry `(i, k)` of row `n`, with the
    quaternion normalised the first way, and the second way. -/
def covRowsScaled (x0 : (⟨2, ![4000000, 4]⟩ : Shape).Idx → EReal) (x1 : (⟨2, ![4000000, 3]⟩ : Shape).Idx → EReal) :
    (⟨3, ![4000000, 3, 3]⟩ : Shape).Idx → EReal :=
  fun i => covScaled (quat x0 (i 0)) (scl x1 (i 0)) (i 1) (i 2)
def covRowsDivided (x0 : (⟨2, ![4000000, 4]⟩ : Shape).Idx → EReal) (x1 : (⟨2, ![4000000, 3]⟩ : Shape).Idx → EReal) :
    (⟨3, ![4000000, 3, 3]⟩ : Shape).Idx → EReal :=
  fun i => covDivided (quat x0 (i 0)) (scl x1 (i 0)) (i 1) (i 2)

/-- When every quaternion entry is a real number and every row's sum of squares is positive, the two results
    are one array. -/
theorem covRowsScaled_eq_covRowsDivided (x0 : (⟨2, ![4000000, 4]⟩ : Shape).Idx → EReal) (x1 : (⟨2, ![4000000, 3]⟩ : Shape).Idx → EReal)
    (hreal : ∀ j, ∃ r : ℝ, x0 j = (r : EReal))
    (hpos : ∀ n : Fin 4000000, Ideal.ofBits .f32 0x00000000#32 < Ideal.ofBits .f32 0x00000000#32 + ∑ k : Fin 4, quat x0 n k * quat x0 n k) :
    covRowsScaled x0 x1 = covRowsDivided x0 x1 :=
  funext fun i => covScaled_eq_covDivided _ _ (fun c => hreal _) (hpos (i 0)) (i 1) (i 2)

end Cert.RowCov

end
-- ==== Proof.RotForms.lean ====
/-
  The nine rotation entries in the spelling both programs print them in: the float operations `mulf`, `addf`,
  `subf` on the literals `1.0`, `2.0` and the four components. At the extended reals each float operation IS the
  operation of the same name, so every spelling is the corresponding entry of `rot`; likewise for a scaled entry
  and for the sum of three products that makes an entry of `M Mᵀ`.
-/
import proofs.«124191_j74457553044377_2_alg».proof.Proof.RowCov

noncomputable section

namespace Cert.RowCov

open Idealize.ShloMosaic

variable (a b c d : Elt Ideal .f32)

theorem form10 : (FloatOps.mulf (FloatOps.ofBits (F := Ideal) FTy.f32 0x40000000#32) (FloatOps.addf (FloatOps.mulf b c) (FloatOps.mulf a d))) = rot a b c d 1 0 := rfl
theorem form11 : (FloatOps.subf (FloatOps.ofBits (F := Ideal) FTy.f32 0x3F800000#32) (FloatOps.mulf (FloatOps.ofBits (F := Ideal) FTy.f32 0x40000000#32) (FloatOps.addf (FloatOps.mulf b b) (FloatOps.mulf d d)))) = rot a b c d 1 1 := rfl
theorem form12 : (FloatOps.mulf (FloatOps.ofBits (F := Ideal) FTy.f32 0x40000000#32) (FloatOps.subf (FloatOps.mulf c d) (FloatOps.mulf a b))) = rot a b c d 1 2 := rfl
theorem form20 : (FloatOps.mulf (FloatOps.ofBits (F := Ideal) FTy.f32 0x40000000#32) (FloatOps.subf (FloatOps.mulf b d) (FloatOps.mulf a c))) = rot a b c d 2 0 := rfl
theorem form21 : (FloatOps.mulf (FloatOps.ofBits (F := Ideal) FTy.f32 0x40000000#32) (FloatOps.addf (FloatOps.mulf c d) (FloatOps.mulf a b))) = rot a b c d 2 1 := rfl
theorem form22 : (FloatOps.subf (FloatOps.ofBits (F := Ideal) FTy.f32 0x3F800000#32) (FloatOps.mulf (FloatOps.ofBits (F := Ideal) FTy.f32 0x40000000#32) (FloatOps.addf (FloatOps.mulf b b) (FloatOps.mulf c c)))) = rot a b c d 2 2 := rfl
theorem form00 : (FloatOps.subf (FloatOps.ofBits (F := Ideal) FTy.f32 0x3F800000#32) (FloatOps.mulf (FloatOps.ofBits (F := Ideal) FTy.f32 0x40000000#32) (FloatOps.addf (FloatOps.mulf c c) (FloatOps.mulf d d)))) = rot a b c d 0 0 := rfl
theorem form01 : (FloatOps.mulf (FloatOps.ofBits (F := Ideal) FTy.f32 0x40000000#32) (FloatOps.subf (FloatOps.mulf b c) (FloatOps.mulf a d))) = rot a b c d 0 1 := rfl
theorem form02 : (FloatOps.mulf (FloatOps.ofBits (F := Ideal) FTy.f32 0x40000000#32) (FloatOps.addf (FloatOps.mulf b d) (FloatOps.mulf a c))) = rot a b c d 0 2 := rfl

/-- A scaled entry, and the three products added left to right. -/
theorem form_mat (r s : Ideal FTy.f32) : FloatOps.mulf (F := Ideal) r s = (r * s : EReal) := rfl
theorem form_sum3 (p0 q0 p1 q1 p2 q2 : Ideal FTy.f32) :
    FloatOps.addf (F := Ideal) (FloatOps.addf (F := Ideal) (FloatOps.mulf (F := Ideal) p0 q0) (FloatOps.mulf (F := Ideal) p1 q1)) (FloatOps.mulf (F := Ideal) p2 q2)
      = (p0 * q0 + p1 * q1 + p2 * q2 : EReal) := rfl

end Cert.RowCov

end
-- ==== Proof.RefQuat.lean ====
/-
  The reference's normalised quaternion.

  The norm of row `n` is `sqrt (0 + ∑ₖ q n k · q n k)`; entry `(n, c)` of the quotient array is component `c` of
  row `n` divided by that norm (`divided`); its four columns, cut out and flattened, are the four components as
  vectors over the rows.
-/
import proofs.«124191_j74457553044377_2_alg».proof.Proof.Gen.ReferenceIdeal.Run
import proofs.«124191_j74457553044377_2_alg».proof.Proof.Gen.ReferenceIdeal.Read
import proofs.«124191_j74457553044377_2_alg».proof.Proof.RowCov
import Idealize.ShloMosaic.Lib.ValueIdx

noncomputable section

namespace Cert.ReferenceIdeal.RefRows

open Cert.ReferenceIdeal Cert.ReferenceIdeal.Gen Cert.ReferenceIdeal.Read Idealize.ShloMosaic Idealize.ShloMosaic.ValueIdx Cert.RowCov

variable (x0 : (⟨S4000000x4, .f32⟩ : BufTy).Contents (Elt Ideal)) (x1 : (⟨S4000000x3, .f32⟩ : BufTy).Contents (Elt Ideal))

/-- Entry `j` of the quotient array: component `j 1` of row `j 0` over that row's norm. -/
theorem normed (j : S4000000x4.Idx) : val_main_v2 (F := Ideal) x0 j = divided (quat x0 (j 0)) (j 1) := by
  rw [val_main_v2_apply, val_main_v1_apply, val_main_v0_apply, val_main_call0_v2_apply, val_main_call0_v1_apply]
  have hi : ∀ k : Fin 4, idx_main_call0_v1 (idx_main_call0_v2 (idx_main_v1 j)) k = ix2 (j 0) k := fun k =>
    funext fun a => Fin.ext (by match a with | ⟨0, _⟩ => rfl | ⟨1, _⟩ => rfl)
  simp only [hi, val_main_call0_v0_apply, val_main_call0_cst_apply]
  rw [show x0 j = x0 (ix2 (j 0) (j 1)) from congrArg x0 (eq_ix2 j)]
  rfl

/-- The four columns of the quotient array, each as a vector over the rows. -/
theorem comp0 (i : S4000000.Idx) : val_main_v4 (F := Ideal) x0 i = divided (quat x0 (i 0)) 0 := by
  rw [val_main_v4_apply, val_main_v3_apply, normed]
  have h0 : (idx_main_v3 (idx_main_v4 i) 0 : Fin 4000000) = i 0 := Fin.ext (Nat.div_one _)
  have h1 : (idx_main_v3 (idx_main_v4 i) 1 : Fin 4) = (0 : Fin 4) := Fin.ext rfl
  rw [h0, h1]
theorem comp1 (i : S4000000.Idx) : val_main_v6 (F := Ideal) x0 i = divided (quat x0 (i 0)) 1 := by
  rw [val_main_v6_apply, val_main_v5_apply, normed]
  have h0 : (idx_main_v5 (idx_main_v6 i) 0 : Fin 4000000) = i 0 := Fin.ext (Nat.div_one _)
  have h1 : (idx_main_v5 (idx_main_v6 i) 1 : Fin 4) = (1 : Fin 4) := Fin.ext rfl
  rw [h0, h1]
theorem comp2 (i : S4000000.Idx) : val_main_v8 (F := Ideal) x0 i = divided (quat x0 (i 0)) 2 := by
  rw [val_main_v8_apply, val_main_v7_apply, normed]
  have h0 : (idx_main_v7 (idx_main_v8 i) 0 : Fin 4000000) = i 0 := Fin.ext (Nat.div_one _)
  have h1 : (idx_main_v7 (idx_main_v8 i) 1 : Fin 4) = (2 : Fin 4) := Fin.ext rfl
  rw [h0, h1]
theorem comp3 (i : S4000000.Idx) : val_main_v10 (F := Ideal) x0 i = divided (quat x0 (i 0)) 3 := by
  rw [val_main_v10_apply, val_main_v9_apply, normed]
  have h0 : (idx_main_v9 (idx_main_v10 i) 0 : Fin 4000000) = i 0 := Fin.ext (Nat.div_one _)
  have h1 : (idx_main_v9 (idx_main_v10 i) 1 : Fin 4) = (3 : Fin 4) := Fin.ext rfl
  rw [h0, h1]

end Cert.ReferenceIdeal.RefRows

end
-- ==== Proof.RefEntries.lean ====
/-
  The reference's nine rotation entries.

  Each is a vector over the rows, computed pointwise from the four columns `a, b, c, d` of the normalised
  quaternion and the literals `1` and `2`: the textbook polynomials `1 - 2 (c² + d²)`, `2 (b c - a d)`, … of
  `rot`.
-/
import proofs.«124191_j74457553044377_2_alg».proof.Proof.Gen.ReferenceIdeal.Run
import proofs.«124191_j74457553044377_2_alg».proof.Proof.Gen.ReferenceIdeal.Read
import proofs.«124191_j74457553044377_2_alg».proof.Proof.RowCov
import proofs.«124191_j74457553044377_2_alg».proof.Proof.RotForms
import Idealize.ShloMosaic.Lib.ValueIdx

noncomputable section

namespace Cert.ReferenceIdeal.RefRows

open Cert.ReferenceIdeal Cert.ReferenceIdeal.Gen Cert.ReferenceIdeal.Read Idealize.ShloMosaic Idealize.ShloMosaic.ValueIdx Cert.RowCov

variable (x0 : (⟨S4000000x4, .f32⟩ : BufTy).Contents (Elt Ideal)) (x1 : (⟨S4000000x3, .f32⟩ : BufTy).Contents (Elt Ideal))

theorem entry00 (i : S4000000.Idx) : val_main_v17 (F := Ideal) x0 i = rot (val_main_v4 (F := Ideal) x0 i) (val_main_v6 (F := Ideal) x0 i) (val_main_v8 (F := Ideal) x0 i) (val_main_v10 (F := Ideal) x0 i) 0 0 := by
  rw [val_main_v17_apply, val_main_v16_apply, val_main_cst_0_apply, val_main_v15_apply, val_main_v14_apply, val_main_cst_apply, val_main_v13_apply, val_main_v11_apply, val_main_v12_apply]
  exact form00 _ _ _ _

theorem entry01 (i : S4000000.Idx) : val_main_v22 (F := Ideal) x0 i = rot (val_main_v4 (F := Ideal) x0 i) (val_main_v6 (F := Ideal) x0 i) (val_main_v8 (F := Ideal) x0 i) (val_main_v10 (F := Ideal) x0 i) 0 1 := by
  rw [val_main_v22_apply, val_main_v21_apply, val_main_cst_1_apply, val_main_v20_apply, val_main_v18_apply, val_main_v19_apply]
  exact form01 _ _ _ _

theorem entry02 (i : S4000000.Idx) : val_main_v27 (F := Ideal) x0 i = rot (val_main_v4 (F := Ideal) x0 i) (val_main_v6 (F := Ideal) x0 i) (val_main_v8 (F := Ideal) x0 i) (val_main_v10 (F := Ideal) x0 i) 0 2 := by
  rw [val_main_v27_apply, val_main_v26_apply, val_main_cst_2_apply, val_main_v25_apply, val_main_v23_apply, val_main_v24_apply]
  exact form02 _ _ _ _

theorem entry10 (i : S4000000.Idx) : val_main_v32 (F := Ideal) x0 i = rot (val_main_v4 (F := Ideal) x0 i) (val_main_v6 (F := Ideal) x0 i) (val_main_v8 (F := Ideal) x0 i) (val_main_v10 (F := Ideal) x0 i) 1 0 := by
  rw [val_main_v32_apply, val_main_v31_apply, val_main_cst_3_apply, val_main_v30_apply, val_main_v28_apply, val_main_v29_apply]
  exact form10 _ _ _ _

theorem entry11 (i : S4000000.Idx) : val_main_v39 (F := Ideal) x0 i = rot (val_main_v4 (F := Ideal) x0 i) (val_main_v6 (F := Ideal) x0 i) (val_main_v8 (F := Ideal) x0 i) (val_main_v10 (F := Ideal) x0 i) 1 1 := by
  rw [val_main_v39_apply, val_main_v38_apply, val_main_cst_5_apply, val_main_v37_apply, val_main_v36_apply, val_main_cst_4_apply, val_main_v35_apply, val_main_v33_apply, val_main_v34_apply]
  exact form11 _ _ _ _

theorem entry12 (i : S4000000.Idx) : val_main_v44 (F := Ideal) x0 i = rot (val_main_v4 (F := Ideal) x0 i) (val_main_v6 (F := Ideal) x0 i) (val_main_v8 (F := Ideal) x0 i) (val_main_v10 (F := Ideal) x0 i) 1 2 := by
  rw [val_main_v44_apply, val_main_v43_apply, val_main_cst_6_apply, val_main_v42_apply, val_main_v40_apply, val_main_v41_apply]
  exact form12 _ _ _ _

theorem entry20 (i : S4000000.Idx) : val_main_v49 (F := Ideal) x0 i = rot (val_main_v4 (F := Ideal) x0 i) (val_main_v6 (F := Ideal) x0 i) (val_main_v8 (F := Ideal) x0 i) (val_main_v10 (F := Ideal) x0 i) 2 0 := by
  rw [val_main_v49_apply, val_main_v48_apply, val_main_cst_7_apply, val_main_v47_apply, val_main_v45_apply, val_main_v46_apply]
  exact form20 _ _ _ _

theorem entry21 (i : S4000000.Idx) : val_main_v54 (F := Ideal) x0 i = rot (val_main_v4 (F := Ideal) x0 i) (val_main_v6 (F := Ideal) x0 i) (val_main_v8 (F := Ideal) x0 i) (val_main_v10 (F := Ideal) x0 i) 2 1 := by
  rw [val_main_v54_apply, val_main_v53_apply, val_main_cst_8_apply, val_main_v52_apply, val_main_v50_apply, val_main_v51_apply]
  exact form21 _ _ _ _

theorem entry22 (i : S4000000.Idx) : val_main_v61 (F := Ideal) x0 i = rot (val_main_v4 (F := Ideal) x0 i) (val_main_v6 (F := Ideal) x0 i) (val_main_v8 (F := Ideal) x0 i) (val_main_v10 (F := Ideal) x0 i) 2 2 := by
  rw [val_main_v61_apply, val_main_v60_apply, val_main_cst_10_apply, val_main_v59_apply, val_main_v58_apply, val_main_cst_9_apply, val_main_v57_apply, val_main_v55_apply, val_main_v56_apply]
  exact form22 _ _ _ _

end Cert.ReferenceIdeal.RefRows

end
-- ==== Proof.RefStack.lean ====
/-
  The reference's nine entry vectors side by side.

  Each entry vector is turned into a column (`[4000000] → [4000000, 1]`) and the nine columns are joined along
  the second axis: entry `(n, k)` of the `[4000000, 9]` array is entry `n` of the `k`-th vector.
-/
import proofs.«124191_j74457553044377_2_alg».proof.Proof.Gen.ReferenceIdeal.Run
import proofs.«124191_j74457553044377_2_alg».proof.Proof.Gen.ReferenceIdeal.Read
import proofs.«124191_j74457553044377_2_alg».proof.Proof.RowCov
import Idealize.ShloMosaic.Lib.ValueIdx
import Idealize.ShloMosaic.Lib.Pipeline.Value

noncomputable section

namespace Cert.ReferenceIdeal.RefRows

open Cert.ReferenceIdeal Cert.ReferenceIdeal.Gen Cert.ReferenceIdeal.Read Idealize.ShloMosaic Idealize.ShloMosaic.ValueIdx Cert.RowCov

variable (x0 : (⟨S4000000x4, .f32⟩ : BufTy).Contents (Elt Ideal)) (x1 : (⟨S4000000x3, .f32⟩ : BufTy).Contents (Elt Ideal))

theorem stack0 (n : Fin 4000000) : val_main_v71 (F := Ideal) x0 (ix2 n (0 : Fin 9)) = val_main_v17 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (0 : Fin 9)) 0 (by show 0 < 9; omega) S4000000x1 (val_main_v62 (F := Ideal) x0) rfl rfl 0 (by rfl)
    (ix2 n (0 : Fin 1)) (fun b hb => by match b with | ⟨0, _⟩ => rfl | ⟨1, _⟩ => exact absurd rfl hb) rfl).trans ?_
  rw [val_main_v62_apply]
  exact congrArg _ (funext fun a => by match a with | ⟨0, _⟩ => rfl)

theorem stack1 (n : Fin 4000000) : val_main_v71 (F := Ideal) x0 (ix2 n (1 : Fin 9)) = val_main_v22 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (1 : Fin 9)) 1 (by show 1 < 9; omega) S4000000x1 (val_main_v63 (F := Ideal) x0) rfl rfl 1 (by rfl)
    (ix2 n (0 : Fin 1)) (fun b hb => by match b with | ⟨0, _⟩ => rfl | ⟨1, _⟩ => exact absurd rfl hb) rfl).trans ?_
  rw [val_main_v63_apply]
  exact congrArg _ (funext fun a => by match a with | ⟨0, _⟩ => rfl)

theorem stack2 (n : Fin 4000000) : val_main_v71 (F := Ideal) x0 (ix2 n (2 : Fin 9)) = val_main_v27 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (2 : Fin 9)) 2 (by show 2 < 9; omega) S4000000x1 (val_main_v64 (F := Ideal) x0) rfl rfl 2 (by rfl)
    (ix2 n (0 : Fin 1)) (fun b hb => by match b with | ⟨0, _⟩ => rfl | ⟨1, _⟩ => exact absurd rfl hb) rfl).trans ?_
  rw [val_main_v64_apply]
  exact congrArg _ (funext fun a => by match a with | ⟨0, _⟩ => rfl)

theorem stack3 (n : Fin 4000000) : val_main_v71 (F := Ideal) x0 (ix2 n (3 : Fin 9)) = val_main_v32 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (3 : Fin 9)) 3 (by show 3 < 9; omega) S4000000x1 (val_main_v65 (F := Ideal) x0) rfl rfl 3 (by rfl)
    (ix2 n (0 : Fin 1)) (fun b hb => by match b with | ⟨0, _⟩ => rfl | ⟨1, _⟩ => exact absurd rfl hb) rfl).trans ?_
  rw [val_main_v65_apply]
  exact congrArg _ (funext fun a => by match a with | ⟨0, _⟩ => rfl)

theorem stack4 (n : Fin 4000000) : val_main_v71 (F := Ideal) x0 (ix2 n (4 : Fin 9)) = val_main_v39 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (4 : Fin 9)) 4 (by show 4 < 9; omega) S4000000x1 (val_main_v66 (F := Ideal) x0) rfl rfl 4 (by rfl)
    (ix2 n (0 : Fin 1)) (fun b hb => by match b with | ⟨0, _⟩ => rfl | ⟨1, _⟩ => exact absurd rfl hb) rfl).trans ?_
  rw [val_main_v66_apply]
  exact congrArg _ (funext fun a => by match a with | ⟨0, _⟩ => rfl)

theorem stack5 (n : Fin 4000000) : val_main_v71 (F := Ideal) x0 (ix2 n (5 : Fin 9)) = val_main_v44 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (5 : Fin 9)) 5 (by show 5 < 9; omega) S4000000x1 (val_main_v67 (F := Ideal) x0) rfl rfl 5 (by rfl)
    (ix2 n (0 : Fin 1)) (fun b hb => by match b with | ⟨0, _⟩ => rfl | ⟨1, _⟩ => exact absurd rfl hb) rfl).trans ?_
  rw [val_main_v67_apply]
  exact congrArg _ (funext fun a => by match a with | ⟨0, _⟩ => rfl)

theorem stack6 (n : Fin 4000000) : val_main_v71 (F := Ideal) x0 (ix2 n (6 : Fin 9)) = val_main_v49 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (6 : Fin 9)) 6 (by show 6 < 9; omega) S4000000x1 (val_main_v68 (F := Ideal) x0) rfl rfl 6 (by rfl)
    (ix2 n (0 : Fin 1)) (fun b hb => by match b with | ⟨0, _⟩ => rfl | ⟨1, _⟩ => exact absurd rfl hb) rfl).trans ?_
  rw [val_main_v68_apply]
  exact congrArg _ (funext fun a => by match a with | ⟨0, _⟩ => rfl)

theorem stack7 (n : Fin 4000000) : val_main_v71 (F := Ideal) x0 (ix2 n (7 : Fin 9)) = val_main_v54 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (7 : Fin 9)) 7 (by show 7 < 9; omega) S4000000x1 (val_main_v69 (F := Ideal) x0) rfl rfl 7 (by rfl)
    (ix2 n (0 : Fin 1)) (fun b hb => by match b with | ⟨0, _⟩ => rfl | ⟨1, _⟩ => exact absurd rfl hb) rfl).trans ?_
  rw [val_main_v69_apply]
  exact congrArg _ (funext fun a => by match a with | ⟨0, _⟩ => rfl)

theorem stack8 (n : Fin 4000000) : val_main_v71 (F := Ideal) x0 (ix2 n (8 : Fin 9)) = val_main_v61 (F := Ideal) x0 (ix1 n) := by
  unfold val_main_v71
  refine (concatenate_apply_piece (α := Elt Ideal .f32) (t := S4000000x9) (1 : Fin 2) [⟨S4000000x1, (val_main_v62 (F := Ideal) x0)⟩, ⟨S4000000x1, (val_main_v63 (F := Ideal) x0)⟩, ⟨S4000000x1, (val_main_v64 (F := Ideal) x0)⟩, ⟨S4000000x1, (val_main_v65 (F := Ideal) x0)⟩, ⟨S4000000x1, (val_main_v66 (F := Ideal) x0)⟩, ⟨S4000000x1, (val_main_v67 (F := Ideal) x0)⟩, ⟨S4000000x1, (val_main_v68 (F := Ideal) x0)⟩, ⟨S4000000x1, (val_main_v69 (F := Ideal) x0)⟩, ⟨S4000000x1, (val_main_v70 (F := Ideal) x0)⟩] concatenates_S4000000x1_S4000000x1_S4000000x1_S4000000x1_S4000000x1_S4000000x1_S4000000x1_S4000000x1_S4000000x1_S4000000x9_d1
    (ix2 n (8 : Fin 9)) 8 (by show 8 < 9; omega) S4000000x1 (val_main_v70 (F := Ideal) x0) rfl rfl 8 (by rfl)
    (ix2 n (0 : Fin 1)) (fun b hb => by match b with | ⟨0, _⟩ => rfl | ⟨1, _⟩ => exact absurd rfl hb) rfl).trans ?_
  rw [val_main_v70_apply]
  exact congrArg _ (funext fun a => by match a with | ⟨0, _⟩ => rfl)

end Cert.ReferenceIdeal.RefRows

end
-- ==== Proof.RefRows.lean ====
/-
  The reference program, read one row at a time.

  The `[4000000, 9]` stack regrouped three by three puts column `3 i + j` of row `n` at `(n, i, j)`: the
  rotation entry `(i, j)` of the row's quaternion divided by its norm. Column `j` is multiplied by the row's
  scale `s n j`, and the product with the transpose is the sum over the shared column index. So the result
  array is `covRowsDivided` of the two arguments.
-/
import proofs.«124191_j74457553044377_2_alg».proof.Proof.Gen.ReferenceIdeal.Run
import proofs.«124191_j74457553044377_2_alg».proof.Proof.Gen.ReferenceIdeal.Read
import proofs.«124191_j74457553044377_2_alg».proof.Proof.RowCov
import proofs.«124191_j74457553044377_2_alg».proof.Proof.RotForms
import proofs.«124191_j74457553044377_2_alg».proof.Proof.RefQuat
import proofs.«124191_j74457553044377_2_alg».proof.Proof.RefEntries
import proofs.«124191_j74457553044377_2_alg».proof.Proof.RefStack
import Idealize.ShloMosaic.Lib.ValueIdx

noncomputable section

namespace Cert.ReferenceIdeal.RefRows

open Cert.ReferenceIdeal Cert.ReferenceIdeal.Gen Cert.ReferenceIdeal.Read Idealize.ShloMosaic Idealize.ShloMosaic.ValueIdx Cert.RowCov

variable (x0 : (⟨S4000000x4, .f32⟩ : BufTy).Contents (Elt Ideal)) (x1 : (⟨S4000000x3, .f32⟩ : BufTy).Contents (Elt Ideal))

/-! ## Regrouped three by three: entry `(n, i, j)` is column `3 i + j` of row `n` -/

theorem rotEntry00 (n : Fin 4000000) : val_main_v72 (F := Ideal) x0 (ix3 n (0 : Fin 3) (0 : Fin 3))
    = rot (divided (quat x0 n) 0) (divided (quat x0 n) 1) (divided (quat x0 n) 2) (divided (quat x0 n) 3) 0 0 := by
  rw [val_main_v72_apply, show idx_main_v72 (ix3 n (0 : Fin 3) (0 : Fin 3)) = ix2 n (0 : Fin 9) from funext fun a => Fin.ext (by
    have hn : n.val < 4000000 := n.isLt
    match a with
    | ⟨0, _⟩ => show ((n.val * 3 + 0) * 3 + 0) / 9 = n.val; omega
    | ⟨1, _⟩ => show ((n.val * 3 + 0) * 3 + 0) % 9 = 0; omega),
    stack0, entry00, comp0, comp1, comp2, comp3]
theorem rotEntry01 (n : Fin 4000000) : val_main_v72 (F := Ideal) x0 (ix3 n (0 : Fin 3) (1 : Fin 3))
    = rot (divided (quat x0 n) 0) (divided (quat x0 n) 1) (divided (quat x0 n) 2) (divided (quat x0 n) 3) 0 1 := by
  rw [val_main_v72_apply, show idx_main_v72 (ix3 n (0 : Fin 3) (1 : Fin 3)) = ix2 n (1 : Fin 9) from funext fun a => Fin.ext (by
    have hn : n.val < 4000000 := n.isLt
    match a with
    | ⟨0, _⟩ => show ((n.val * 3 + 0) * 3 + 1) / 9 = n.val; omega
    | ⟨1, _⟩ => show ((n.val * 3 + 0) * 3 + 1) % 9 = 1; omega),
    stack1, entry01, comp0, comp1, comp2, comp3]
theorem rotEntry02 (n : Fin 4000000) : val_main_v72 (F := Ideal) x0 (ix3 n (0 : Fin 3) (2 : Fin 3))
    = rot (divided (quat x0 n) 0) (divided (quat x0 n) 1) (divided (quat x0 n) 2) (divided (quat x0 n) 3) 0 2 := by
  rw [val_main_v72_apply, show idx_main_v72 (ix3 n (0 : Fin 3) (2 : Fin 3)) = ix2 n (2 : Fin 9) from funext fun a => Fin.ext (by
    have hn : n.val < 4000000 := n.isLt
    match a with
    | ⟨0, _⟩ => show ((n.val * 3 + 0) * 3 + 2) / 9 = n.val; omega
    | ⟨1, _⟩ => show ((n.val * 3 + 0) * 3 + 2) % 9 = 2; omega),
    stack2, entry02, comp0, comp1, comp2, comp3]
theorem rotEntry10 (n : Fin 4000000) : val_main_v72 (F := Ideal) x0 (ix3 n (1 : Fin 3) (0 : Fin 3))
    = rot (divided (quat x0 n) 0) (divided (quat x0 n) 1) (divided (quat x0 n) 2) (divided (quat x0 n) 3) 1 0 := by
  rw [val_main_v72_apply, show idx_main_v72 (ix3 n (1 : Fin 3) (0 : Fin 3)) = ix2 n (3 : Fin 9) from funext fun a => Fin.ext (by
    have hn : n.val < 4000000 := n.isLt
    match a with
    | ⟨0, _⟩ => show ((n.val * 3 + 1) * 3 + 0) / 9 = n.val; omega
    | ⟨1, _⟩ => show ((n.val * 3 + 1) * 3 + 0) % 9 = 3; omega),
    stack3, entry10, comp0, comp1, comp2, comp3]
theorem rotEntry11 (n : Fin 4000000) : val_main_v72 (F := Ideal) x0 (ix3 n (1 : Fin 3) (1 : Fin 3))
    = rot (divided (quat x0 n) 0) (divided (quat x0 n) 1) (divided (quat x0 n) 2) (divided (quat x0 n) 3) 1 1 := by
  rw [val_main_v72_apply, show idx_main_v72 (ix3 n (1 : Fin 3) (1 : Fin 3)) = ix2 n (4 : Fin 9) from funext fun a => Fin.ext (by
    have hn : n.val < 4000000 := n.isLt
    match a with
    | ⟨0, _⟩ => show ((n.val * 3 + 1) * 3 + 1) / 9 = n.val; omega
    | ⟨1, _⟩ => show ((n.val * 3 + 1) * 3 + 1) % 9 = 4; omega),
    stack4, entry11, comp0, comp1, comp2, comp3]
theorem rotEntry12 (n : Fin 4000000) : val_main_v72 (F := Ideal) x0 (ix3 n (1 : Fin 3) (2 : Fin 3))
    = rot (divided (quat x0 n) 0) (divided (quat x0 n) 1) (divided (quat x0 n) 2) (divided (quat x0 n) 3) 1 2 := by
  rw [val_main_v72_apply, show idx_main_v72 (ix3 n (1 : Fin 3) (2 : Fin 3)) = ix2 n (5 : Fin 9) from funext fun a => Fin.ext (by
    have hn : n.val < 4000000 := n.isLt
    match a with
    | ⟨0, _⟩ => show ((n.val * 3 + 1) * 3 + 2) / 9 = n.val; omega
    | ⟨1, _⟩ => show ((n.val * 3 + 1) * 3 + 2) % 9 = 5; omega),
    stack5, entry12, comp0, comp1, comp2, comp3]
theorem rotEntry20 (n : Fin 4000000) : val_main_v72 (F := Ideal) x0 (ix3 n (2 : Fin 3) (0 : Fin 3))
    = rot (divided (quat x0 n) 0) (divided (quat x0 n) 1) (divided (quat x0 n) 2) (divided (quat x0 n) 3) 2 0 := by
  rw [val_main_v72_apply, show idx_main_v72 (ix3 n (2 : Fin 3) (0 : Fin 3)) = ix2 n (6 : Fin 9) from funext fun a => Fin.ext (by
    have hn : n.val < 4000000 := n.isLt
    match a with
    | ⟨0, _⟩ => show ((n.val * 3 + 2) * 3 + 0) / 9 = n.val; omega
    | ⟨1, _⟩ => show ((n.val * 3 + 2) * 3 + 0) % 9 = 6; omega),
    stack6, entry20, comp0, comp1, comp2, comp3]
theorem rotEntry21 (n : Fin 4000000) : val_main_v72 (F := Ideal) x0 (ix3 n (2 : Fin 3) (1 : Fin 3))
    = rot (divided (quat x0 n) 0) (divided (quat x0 n) 1) (divided (quat x0 n) 2) (divided (quat x0 n) 3) 2 1 := by
  rw [val_main_v72_apply, show idx_main_v72 (ix3 n (2 : Fin 3) (1 : Fin 3)) = ix2 n (7 : Fin 9) from funext fun a => Fin.ext (by
    have hn : n.val < 4000000 := n.isLt
    match a with
    | ⟨0, _⟩ => show ((n.val * 3 + 2) * 3 + 1) / 9 = n.val; omega
    | ⟨1, _⟩ => show ((n.val * 3 + 2) * 3 + 1) % 9 = 7; omega),
    stack7, entry21, comp0, comp1, comp2, comp3]
theorem rotEntry22 (n : Fin 4000000) : val_main_v72 (F := Ideal) x0 (ix3 n (2 : Fin 3) (2 : Fin 3))
    = rot (divided (quat x0 n) 0) (divided (quat x0 n) 1) (divided (quat x0 n) 2) (divided (quat x0 n) 3) 2 2 := by
  rw [val_main_v72_apply, show idx_main_v72 (ix3 n (2 : Fin 3) (2 : Fin 3)) = ix2 n (8 : Fin 9) from funext fun a => Fin.ext (by
    have hn : n.val < 4000000 := n.isLt
    match a with
    | ⟨0, _⟩ => show ((n.val * 3 + 2) * 3 + 2) / 9 = n.val; omega
    | ⟨1, _⟩ => show ((n.val * 3 + 2) * 3 + 2) % 9 = 8; omega),
    stack8, entry22, comp0, comp1, comp2, comp3]

theorem rotEntry (n : Fin 4000000) : ∀ i j : Fin 3, val_main_v72 (F := Ideal) x0 (ix3 n i j) = rot (divided (quat x0 n) 0) (divided (quat x0 n) 1) (divided (quat x0 n) 2) (divided (quat x0 n) 3) i j
  | ⟨0, _⟩, ⟨0, _⟩ => rotEntry00 x0 n
  | ⟨0, _⟩, ⟨1, _⟩ => rotEntry01 x0 n
  | ⟨0, _⟩, ⟨2, _⟩ => rotEntry02 x0 n
  | ⟨1, _⟩, ⟨0, _⟩ => rotEntry10 x0 n
  | ⟨1, _⟩, ⟨1, _⟩ => rotEntry11 x0 n
  | ⟨1, _⟩, ⟨2, _⟩ => rotEntry12 x0 n
  | ⟨2, _⟩, ⟨0, _⟩ => rotEntry20 x0 n
  | ⟨2, _⟩, ⟨1, _⟩ => rotEntry21 x0 n
  | ⟨2, _⟩, ⟨2, _⟩ => rotEntry22 x0 n

/-! ## Column `j` scaled by `s n j`, and the product with the transpose -/

theorem matEntry (n : Fin 4000000) (i j : Fin 3) : val_main_v75 (F := Ideal) x0 x1 (ix3 n i j) = mat (divided (quat x0 n) 0) (divided (quat x0 n) 1) (divided (quat x0 n) 2) (divided (quat x0 n) 3) (scl x1 n) i j := by
  rw [val_main_v75_apply, rotEntry, val_main_v74_apply, val_main_v73_apply,
    show idx_main_v73 (idx_main_v74 (ix3 n i j)) = ix2 n j from funext fun a => Fin.ext (by match a with | ⟨0, _⟩ => rfl | ⟨1, _⟩ => rfl)]
  exact form_mat _ _

theorem covEntry (n : Fin 4000000) (i k : Fin 3) : val_main_v76 (F := Ideal) x0 x1 (ix3 n i k) = covDivided (quat x0 n) (scl x1 n) i k := by
  rw [val_main_v76_apply, Fin.sum_univ_three]
  have hl : ∀ j : Fin 3, lidx_main_v76 (ix3 n i k) j = ix3 n i j := fun j =>
    funext fun a => Fin.ext (by match a with | ⟨0, _⟩ => rfl | ⟨1, _⟩ => rfl | ⟨2, _⟩ => rfl)
  have hr : ∀ j : Fin 3, ridx_main_v76 (ix3 n i k) j = ix3 n k j := fun j =>
    funext fun a => Fin.ext (by match a with | ⟨0, _⟩ => rfl | ⟨1, _⟩ => rfl | ⟨2, _⟩ => rfl)
  rw [hl 0, hl 1, hl 2, hr 0, hr 1, hr 2, matEntry, matEntry, matEntry, matEntry, matEntry, matEntry]
  exact rfl

/-- The reference's result array is the row-by-row covariance with each quaternion divided by its norm. -/
theorem result_eq : val_main_v76 (F := Ideal) x0 x1 = covRowsDivided x0 x1 := by
  funext i
  obtain ⟨n, a, b, rfl⟩ : ∃ (n : Fin 4000000) (a b : Fin 3), i = ix3 n a b := ⟨i 0, i 1, i 2, eq_ix3 i⟩
  exact covEntry x0 x1 n a b

end Cert.ReferenceIdeal.RefRows

end
-- ==== Proof.BodyPoint.lean ====
/-
  The kernel body at one point of a block.

  The body loads the four components of the quaternions and the three components of the scales as `[1, 512, 128]`
  blocks, views them `[512, 128]`, and everything after that is pointwise. At the point `y` of the block, with
  `q = qAt y` the four loaded components there and `s = sAt y` the three scales: the reciprocal norm is
  `rsqrt (sumsq q)`, the normalised components are `scaled q c`, the nine rotation entries are `rot` of those,
  the nine matrix vectors are `mat`, and the value stored at component `3 i + k` is `covScaled q s i k`.
-/
import proofs.«124191_j74457553044377_2_alg».proof.Proof.Gen.KernelIdeal.Skeleton
import proofs.«124191_j74457553044377_2_alg».proof.Proof.RowCov
import proofs.«124191_j74457553044377_2_alg».proof.Proof.RotForms
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx Cert.RowCov

variable (l0 l1 l2 l3 s0 s1 s2 : Vec Ideal S1x512x128 .f32)

/-- A point of the `[512, 128]` view as an index of the `[1, 512, 128]` block, and back. -/
abbrev up (y : S512x128.Idx) : S1x512x128.Idx := Fin.cons ⟨0, Nat.one_pos⟩ y
abbrev dn (j : S1x512x128.Idx) : S512x128.Idx := fun a => j a.succ

/-- The loaded quaternion and the loaded scale at the point `y`. -/
def qAt (y : S512x128.Idx) : Fin 4 → EReal := ![l0 (up y), l1 (up y), l2 (up y), l3 (up y)]
def sAt (y : S512x128.Idx) : Fin 3 → EReal := ![s0 (up y), s1 (up y), s2 (up y)]

/-! ## The loads, viewed `[512, 128]` -/

theorem load5 (v : Vec Ideal S1x512x128 .f32) (y : S512x128.Idx) : k0_pay5 v y = v (up y) := shapeCast_dropUnit_apply _ v _ y
theorem load6 (v : Vec Ideal S1x512x128 .f32) (y : S512x128.Idx) : k0_pay6 v y = v (up y) := shapeCast_dropUnit_apply _ v _ y
theorem load7 (v : Vec Ideal S1x512x128 .f32) (y : S512x128.Idx) : k0_pay7 v y = v (up y) := shapeCast_dropUnit_apply _ v _ y
theorem load8 (v : Vec Ideal S1x512x128 .f32) (y : S512x128.Idx) : k0_pay8 v y = v (up y) := shapeCast_dropUnit_apply _ v _ y
theorem load18 (v : Vec Ideal S1x512x128 .f32) (y : S512x128.Idx) : k0_pay18 v y = v (up y) := shapeCast_dropUnit_apply _ v _ y
theorem load19 (v : Vec Ideal S1x512x128 .f32) (y : S512x128.Idx) : k0_pay19 v y = v (up y) := shapeCast_dropUnit_apply _ v _ y
theorem load20 (v : Vec Ideal S1x512x128 .f32) (y : S512x128.Idx) : k0_pay20 v y = v (up y) := shapeCast_dropUnit_apply _ v _ y

/-! ## The reciprocal norm and the normalised components -/

theorem rnorm_at (y : S512x128.Idx) : k0_pay9 l0 l1 l2 l3 y = Ideal.rsqrt (sumsq (qAt l0 l1 l2 l3 y)) := by
  have h : k0_pay9 l0 l1 l2 l3 y = Ideal.rsqrt ((k0_pay5 l0 y : EReal) * k0_pay5 l0 y + (k0_pay6 l1 y : EReal) * k0_pay6 l1 y
      + (k0_pay7 l2 y : EReal) * k0_pay7 l2 y + (k0_pay8 l3 y : EReal) * k0_pay8 l3 y) := rfl
  rw [h, load5, load6, load7, load8]
  exact rfl

theorem comp0_at (y : S512x128.Idx) : k0_pay10 l0 l1 l2 l3 y = scaled (qAt l0 l1 l2 l3 y) 0 := by
  have h : k0_pay10 l0 l1 l2 l3 y = (k0_pay5 l0 y : EReal) * k0_pay9 l0 l1 l2 l3 y := rfl
  rw [h, load5, rnorm_at]; exact rfl
theorem comp1_at (y : S512x128.Idx) : k0_pay11 l0 l1 l2 l3 y = scaled (qAt l0 l1 l2 l3 y) 1 := by
  have h : k0_pay11 l0 l1 l2 l3 y = (k0_pay6 l1 y : EReal) * k0_pay9 l0 l1 l2 l3 y := rfl
  rw [h, load6, rnorm_at]; exact rfl
theorem comp2_at (y : S512x128.Idx) : k0_pay12 l0 l1 l2 l3 y = scaled (qAt l0 l1 l2 l3 y) 2 := by
  have h : k0_pay12 l0 l1 l2 l3 y = (k0_pay7 l2 y : EReal) * k0_pay9 l0 l1 l2 l3 y := rfl
  rw [h, load7, rnorm_at]; exact rfl
theorem comp3_at (y : S512x128.Idx) : k0_pay13 l0 l1 l2 l3 y = scaled (qAt l0 l1 l2 l3 y) 3 := by
  have h : k0_pay13 l0 l1 l2 l3 y = (k0_pay8 l3 y : EReal) * k0_pay9 l0 l1 l2 l3 y := rfl
  rw [h, load8, rnorm_at]; exact rfl

/-! ## The first four rotation entries, as vectors of their own -/

theorem pay14_at (y : S512x128.Idx) : k0_pay14 l0 l1 l2 l3 y = rot (k0_pay10 l0 l1 l2 l3 y) (k0_pay11 l0 l1 l2 l3 y) (k0_pay12 l0 l1 l2 l3 y) (k0_pay13 l0 l1 l2 l3 y) 0 0 := rfl
theorem pay15_at (y : S512x128.Idx) : k0_pay15 l0 l1 l2 l3 y = rot (k0_pay10 l0 l1 l2 l3 y) (k0_pay11 l0 l1 l2 l3 y) (k0_pay12 l0 l1 l2 l3 y) (k0_pay13 l0 l1 l2 l3 y) 0 1 := rfl
theorem pay16_at (y : S512x128.Idx) : k0_pay16 l0 l1 l2 l3 y = rot (k0_pay10 l0 l1 l2 l3 y) (k0_pay11 l0 l1 l2 l3 y) (k0_pay12 l0 l1 l2 l3 y) (k0_pay13 l0 l1 l2 l3 y) 0 2 := rfl
theorem pay17_at (y : S512x128.Idx) : k0_pay17 l0 l1 l2 l3 y = rot (k0_pay10 l0 l1 l2 l3 y) (k0_pay11 l0 l1 l2 l3 y) (k0_pay12 l0 l1 l2 l3 y) (k0_pay13 l0 l1 l2 l3 y) 1 0 := rfl

/-! ## The nine matrix vectors: rotation entry `(i, j)` times scale `j` -/

theorem m10_at (y : S512x128.Idx) : (k0_pay24 (k0_pay17 l0 l1 l2 l3) s0) y = mat (scaled (qAt l0 l1 l2 l3 y) 0) (scaled (qAt l0 l1 l2 l3 y) 1) (scaled (qAt l0 l1 l2 l3 y) 2) (scaled (qAt l0 l1 l2 l3 y) 3) (sAt s0 s1 s2 y) 1 0 := by
  have h : (k0_pay24 (k0_pay17 l0 l1 l2 l3) s0) y = (k0_pay17 l0 l1 l2 l3 y : EReal) * k0_pay18 s0 y := rfl
  rw [h, pay17_at, comp0_at, comp1_at, comp2_at, comp3_at, load18]; exact rfl
theorem m11_at (y : S512x128.Idx) : (k0_pay25 (k0_pay11 l0 l1 l2 l3) (k0_pay13 l0 l1 l2 l3) s1) y = mat (scaled (qAt l0 l1 l2 l3 y) 0) (scaled (qAt l0 l1 l2 l3 y) 1) (scaled (qAt l0 l1 l2 l3 y) 2) (scaled (qAt l0 l1 l2 l3 y) 3) (sAt s0 s1 s2 y) 1 1 := by
  have h : (k0_pay25 (k0_pay11 l0 l1 l2 l3) (k0_pay13 l0 l1 l2 l3) s1) y = rot (k0_pay10 l0 l1 l2 l3 y) (k0_pay11 l0 l1 l2 l3 y) (k0_pay12 l0 l1 l2 l3 y) (k0_pay13 l0 l1 l2 l3 y) 1 1 * k0_pay19 s1 y := rfl
  rw [h, comp0_at, comp1_at, comp2_at, comp3_at, load19]; exact rfl
theorem m12_at (y : S512x128.Idx) : (k0_pay26 (k0_pay10 l0 l1 l2 l3) (k0_pay11 l0 l1 l2 l3) (k0_pay12 l0 l1 l2 l3) (k0_pay13 l0 l1 l2 l3) s2) y = mat (scaled (qAt l0 l1 l2 l3 y) 0) (scaled (qAt l0 l1 l2 l3 y) 1) (scaled (qAt l0 l1 l2 l3 y) 2) (scaled (qAt l0 l1 l2 l3 y) 3) (sAt s0 s1 s2 y) 1 2 := by
  have h : (k0_pay26 (k0_pay10 l0 l1 l2 l3) (k0_pay11 l0 l1 l2 l3) (k0_pay12 l0 l1 l2 l3) (k0_pay13 l0 l1 l2 l3) s2) y = rot (k0_pay10 l0 l1 l2 l3 y) (k0_pay11 l0 l1 l2 l3 y) (k0_pay12 l0 l1 l2 l3 y) (k0_pay13 l0 l1 l2 l3 y) 1 2 * k0_pay20 s2 y := rfl
  rw [h, comp0_at, comp1_at, comp2_at, comp3_at, load20]; exact rfl
theorem m20_at (y : S512x128.Idx) : (k0_pay27 (k0_pay10 l0 l1 l2 l3) (k0_pay11 l0 l1 l2 l3) (k0_pay12 l0 l1 l2 l3) (k0_pay13 l0 l1 l2 l3) s0) y = mat (scaled (qAt l0 l1 l2 l3 y) 0) (scaled (qAt l0 l1 l2 l3 y) 1) (scaled (qAt l0 l1 l2 l3 y) 2) (scaled (qAt l0 l1 l2 l3 y) 3) (sAt s0 s1 s2 y) 2 0 := by
  have h : (k0_pay27 (k0_pay10 l0 l1 l2 l3) (k0_pay11 l0 l1 l2 l3) (k0_pay12 l0 l1 l2 l3) (k0_pay13 l0 l1 l2 l3) s0) y = rot (k0_pay10 l0 l1 l2 l3 y) (k0_pay11 l0 l1 l2 l3 y) (k0_pay12 l0 l1 l2 l3 y) (k0_pay13 l0 l1 l2 l3 y) 2 0 * k0_pay18 s0 y := rfl
  rw [h, comp0_at, comp1_at, comp2_at, comp3_at, load18]; exact rfl
theorem m21_at (y : S512x128.Idx) : (k0_pay28 (k0_pay10 l0 l1 l2 l3) (k0_pay11 l0 l1 l2 l3) (k0_pay12 l0 l1 l2 l3) (k0_pay13 l0 l1 l2 l3) s1) y = mat (scaled (qAt l0 l1 l2 l3 y) 0) (scaled (qAt l0 l1 l2 l3 y) 1) (scaled (qAt l0 l1 l2 l3 y) 2) (scaled (qAt l0 l1 l2 l3 y) 3) (sAt s0 s1 s2 y) 2 1 := by
  have h : (k0_pay28 (k0_pay10 l0 l1 l2 l3) (k0_pay11 l0 l1 l2 l3) (k0_pay12 l0 l1 l2 l3) (k0_pay13 l0 l1 l2 l3) s1) y = rot (k0_pay10 l0 l1 l2 l3 y) (k0_pay11 l0 l1 l2 l3 y) (k0_pay12 l0 l1 l2 l3 y) (k0_pay13 l0 l1 l2 l3 y) 2 1 * k0_pay19 s1 y := rfl
  rw [h, comp0_at, comp1_at, comp2_at, comp3_at, load19]; exact rfl
theorem m22_at (y : S512x128.Idx) : (k0_pay29 (k0_pay11 l0 l1 l2 l3) (k0_pay12 l0 l1 l2 l3) s2) y = mat (scaled (qAt l0 l1 l2 l3 y) 0) (scaled (qAt l0 l1 l2 l3 y) 1) (scaled (qAt l0 l1 l2 l3 y) 2) (scaled (qAt l0 l1 l2 l3 y) 3) (sAt s0 s1 s2 y) 2 2 := by
  have h : (k0_pay29 (k0_pay11 l0 l1 l2 l3) (k0_pay12 l0 l1 l2 l3) s2) y = rot (k0_pay10 l0 l1 l2 l3 y) (k0_pay11 l0 l1 l2 l3 y) (k0_pay12 l0 l1 l2 l3 y) (k0_pay13 l0 l1 l2 l3 y) 2 2 * k0_pay20 s2 y := rfl
  rw [h, comp0_at, comp1_at, comp2_at, comp3_at, load20]; exact rfl
theorem m00_at (y : S512x128.Idx) : (k0_pay21 (k0_pay14 l0 l1 l2 l3) s0) y = mat (scaled (qAt l0 l1 l2 l3 y) 0) (scaled (qAt l0 l1 l2 l3 y) 1) (scaled (qAt l0 l1 l2 l3 y) 2) (scaled (qAt l0 l1 l2 l3 y) 3) (sAt s0 s1 s2 y) 0 0 := by
  have h : (k0_pay21 (k0_pay14 l0 l1 l2 l3) s0) y = (k0_pay14 l0 l1 l2 l3 y : EReal) * k0_pay18 s0 y := rfl
  rw [h, pay14_at, comp0_at, comp1_at, comp2_at, comp3_at, load18]; exact rfl
theorem m01_at (y : S512x128.Idx) : (k0_pay22 (k0_pay15 l0 l1 l2 l3) s1) y = mat (scaled (qAt l0 l1 l2 l3 y) 0) (scaled (qAt l0 l1 l2 l3 y) 1) (scaled (qAt l0 l1 l2 l3 y) 2) (scaled (qAt l0 l1 l2 l3 y) 3) (sAt s0 s1 s2 y) 0 1 := by
  have h : (k0_pay22 (k0_pay15 l0 l1 l2 l3) s1) y = (k0_pay15 l0 l1 l2 l3 y : EReal) * k0_pay19 s1 y := rfl
  rw [h, pay15_at, comp0_at, comp1_at, comp2_at, comp3_at, load19]; exact rfl
theorem m02_at (y : S512x128.Idx) : (k0_pay23 (k0_pay16 l0 l1 l2 l3) s2) y = mat (scaled (qAt l0 l1 l2 l3 y) 0) (scaled (qAt l0 l1 l2 l3 y) 1) (scaled (qAt l0 l1 l2 l3 y) 2) (scaled (qAt l0 l1 l2 l3 y) 3) (sAt s0 s1 s2 y) 0 2 := by
  have h : (k0_pay23 (k0_pay16 l0 l1 l2 l3) s2) y = (k0_pay16 l0 l1 l2 l3 y : EReal) * k0_pay20 s2 y := rfl
  rw [h, pay16_at, comp0_at, comp1_at, comp2_at, comp3_at, load20]; exact rfl

/-! ## The nine stored values: the three products of two rows of the matrix, added left to right -/

theorem k0_pay30_at (v0 v1 v2 : FVec Ideal S512x128 .f32) (j : S1x512x128.Idx) :
    k0_pay30 v0 v1 v2 j = (v0 (dn j) * v0 (dn j) + v1 (dn j) * v1 (dn j) + v2 (dn j) * v2 (dn j) : EReal) := by
  unfold k0_pay30
  exact shapeCast_addUnit_apply _ _ _ j

theorem store0 (j : S1x512x128.Idx) : k0_pay30 (k0_pay21 (k0_pay14 l0 l1 l2 l3) s0) (k0_pay22 (k0_pay15 l0 l1 l2 l3) s1) (k0_pay23 (k0_pay16 l0 l1 l2 l3) s2) j
    = covScaled (qAt l0 l1 l2 l3 (dn j)) (sAt s0 s1 s2 (dn j)) 0 0 := by
  rw [k0_pay30_at, m00_at, m01_at, m02_at]
  exact rfl

theorem k0_pay31_at (v0 v1 v2 v3 v4 v5 : FVec Ideal S512x128 .f32) (j : S1x512x128.Idx) :
    k0_pay31 v0 v1 v2 v3 v4 v5 j = (v0 (dn j) * v3 (dn j) + v1 (dn j) * v4 (dn j) + v2 (dn j) * v5 (dn j) : EReal) := by
  unfold k0_pay31
  exact shapeCast_addUnit_apply _ _ _ j

theorem store1 (j : S1x512x128.Idx) : k0_pay31 (k0_pay21 (k0_pay14 l0 l1 l2 l3) s0) (k0_pay22 (k0_pay15 l0 l1 l2 l3) s1) (k0_pay23 (k0_pay16 l0 l1 l2 l3) s2) (k0_pay24 (k0_pay17 l0 l1 l2 l3) s0) (k0_pay25 (k0_pay11 l0 l1 l2 l3) (k0_pay13 l0 l1 l2 l3) s1) (k0_pay26 (k0_pay10 l0 l1 l2 l3) (k0_pay11 l0 l1 l2 l3) (k0_pay12 l0 l1 l2 l3) (k0_pay13 l0 l1 l2 l3) s2) j
    = covScaled (qAt l0 l1 l2 l3 (dn j)) (sAt s0 s1 s2 (dn j)) 0 1 := by
  rw [k0_pay31_at, m00_at, m01_at, m02_at, m10_at, m11_at, m12_at]
  exact rfl

theorem k0_pay32_at (v0 v1 v2 v3 v4 v5 : FVec Ideal S512x128 .f32) (j : S1x512x128.Idx) :
    k0_pay32 v0 v1 v2 v3 v4 v5 j = (v0 (dn j) * v3 (dn j) + v1 (dn j) * v4 (dn j) + v2 (dn j) * v5 (dn j) : EReal) := by
  unfold k0_pay32
  exact shapeCast_addUnit_apply _ _ _ j

theorem store2 (j : S1x512x128.Idx) : k0_pay32 (k0_pay21 (k0_pay14 l0 l1 l2 l3) s0) (k0_pay22 (k0_pay15 l0 l1 l2 l3) s1) (k0_pay23 (k0_pay16 l0 l1 l2 l3) s2) (k0_pay27 (k0_pay10 l0 l1 l2 l3) (k0_pay11 l0 l1 l2 l3) (k0_pay12 l0 l1 l2 l3) (k0_pay13 l0 l1 l2 l3) s0) (k0_pay28 (k0_pay10 l0 l1 l2 l3) (k0_pay11 l0 l1 l2 l3) (k0_pay12 l0 l1 l2 l3) (k0_pay13 l0 l1 l2 l3) s1) (k0_pay29 (k0_pay11 l0 l1 l2 l3) (k0_pay12 l0 l1 l2 l3) s2) j
    = covScaled (qAt l0 l1 l2 l3 (dn j)) (sAt s0 s1 s2 (dn j)) 0 2 := by
  rw [k0_pay32_at, m00_at, m01_at, m02_at, m20_at, m21_at, m22_at]
  exact rfl

theorem k0_pay33_at (v0 v1 v2 v3 v4 v5 : FVec Ideal S512x128 .f32) (j : S1x512x128.Idx) :
    k0_pay33 v0 v1 v2 v3 v4 v5 j = (v3 (dn j) * v0 (dn j) + v4 (dn j) * v1 (dn j) + v5 (dn j) * v2 (dn j) : EReal) := by
  unfold k0_pay33
  exact shapeCast_addUnit_apply _ _ _ j

theorem store3 (j : S1x512x128.Idx) : k0_pay33 (k0_pay21 (k0_pay14 l0 l1 l2 l3) s0) (k0_pay22 (k0_pay15 l0 l1 l2 l3) s1) (k0_pay23 (k0_pay16 l0 l1 l2 l3) s2) (k0_pay24 (k0_pay17 l0 l1 l2 l3) s0) (k0_pay25 (k0_pay11 l0 l1 l2 l3) (k0_pay13 l0 l1 l2 l3) s1) (k0_pay26 (k0_pay10 l0 l1 l2 l3) (k0_pay11 l0 l1 l2 l3) (k0_pay12 l0 l1 l2 l3) (k0_pay13 l0 l1 l2 l3) s2) j
    = covScaled (qAt l0 l1 l2 l3 (dn j)) (sAt s0 s1 s2 (dn j)) 1 0 := by
  rw [k0_pay33_at, m00_at, m01_at, m02_at, m10_at, m11_at, m12_at]
  exact rfl

theorem k0_pay34_at (v0 v1 v2 : FVec Ideal S512x128 .f32) (j : S1x512x128.Idx) :
    k0_pay34 v0 v1 v2 j = (v0 (dn j) * v0 (dn j) + v1 (dn j) * v1 (dn j) + v2 (dn j) * v2 (dn j) : EReal) := by
  unfold k0_pay34
  exact shapeCast_addUnit_apply _ _ _ j

theorem store4 (j : S1x512x128.Idx) : k0_pay34 (k0_pay24 (k0_pay17 l0 l1 l2 l3) s0) (k0_pay25 (k0_pay11 l0 l1 l2 l3) (k0_pay13 l0 l1 l2 l3) s1) (k0_pay26 (k0_pay10 l0 l1 l2 l3) (k0_pay11 l0 l1 l2 l3) (k0_pay12 l0 l1 l2 l3) (k0_pay13 l0 l1 l2 l3) s2) j
    = covScaled (qAt l0 l1 l2 l3 (dn j)) (sAt s0 s1 s2 (dn j)) 1 1 := by
  rw [k0_pay34_at, m10_at, m11_at, m12_at]
  exact rfl

theorem k0_pay1_at (v0 v1 v2 v3 v4 v5 : FVec Ideal S512x128 .f32) (j : S1x512x128.Idx) :
    k0_pay1 v0 v1 v2 v3 v4 v5 j = (v0 (dn j) * v3 (dn j) + v1 (dn j) * v4 (dn j) + v2 (dn j) * v5 (dn j) : EReal) := by
  unfold k0_pay1
  exact shapeCast_addUnit_apply _ _ _ j

theorem store5 (j : S1x512x128.Idx) : k0_pay1 (k0_pay24 (k0_pay17 l0 l1 l2 l3) s0) (k0_pay25 (k0_pay11 l0 l1 l2 l3) (k0_pay13 l0 l1 l2 l3) s1) (k0_pay26 (k0_pay10 l0 l1 l2 l3) (k0_pay11 l0 l1 l2 l3) (k0_pay12 l0 l1 l2 l3) (k0_pay13 l0 l1 l2 l3) s2) (k0_pay27 (k0_pay10 l0 l1 l2 l3) (k0_pay11 l0 l1 l2 l3) (k0_pay12 l0 l1 l2 l3) (k0_pay13 l0 l1 l2 l3) s0) (k0_pay28 (k0_pay10 l0 l1 l2 l3) (k0_pay11 l0 l1 l2 l3) (k0_pay12 l0 l1 l2 l3) (k0_pay13 l0 l1 l2 l3) s1) (k0_pay29 (k0_pay11 l0 l1 l2 l3) (k0_pay12 l0 l1 l2 l3) s2) j
    = covScaled (qAt l0 l1 l2 l3 (dn j)) (sAt s0 s1 s2 (dn j)) 1 2 := by
  rw [k0_pay1_at, m10_at, m11_at, m12_at, m20_at, m21_at, m22_at]
  exact rfl

theorem k0_pay2_at (v0 v1 v2 v3 v4 v5 : FVec Ideal S512x128 .f32) (j : S1x512x128.Idx) :
    k0_pay2 v0 v1 v2 v3 v4 v5 j = (v3 (dn j) * v0 (dn j) + v4 (dn j) * v1 (dn j) + v5 (dn j) * v2 (dn j) : EReal) := by
  unfold k0_pay2
  exact shapeCast_addUnit_apply _ _ _ j

theorem store6 (j : S1x512x128.Idx) : k0_pay2 (k0_pay21 (k0_pay14 l0 l1 l2 l3) s0) (k0_pay22 (k0_pay15 l0 l1 l2 l3) s1) (k0_pay23 (k0_pay16 l0 l1 l2 l3) s2) (k0_pay27 (k0_pay10 l0 l1 l2 l3) (k0_pay11 l0 l1 l2 l3) (k0_pay12 l0 l1 l2 l3) (k0_pay13 l0 l1 l2 l3) s0) (k0_pay28 (k0_pay10 l0 l1 l2 l3) (k0_pay11 l0 l1 l2 l3) (k0_pay12 l0 l1 l2 l3) (k0_pay13 l0 l1 l2 l3) s1) (k0_pay29 (k0_pay11 l0 l1 l2 l3) (k0_pay12 l0 l1 l2 l3) s2) j
    = covScaled (qAt l0 l1 l2 l3 (dn j)) (sAt s0 s1 s2 (dn j)) 2 0 := by
  rw [k0_pay2_at, m00_at, m01_at, m02_at, m20_at, m21_at, m22_at]
  exact rfl

theorem k0_pay3_at (v0 v1 v2 v3 v4 v5 : FVec Ideal S512x128 .f32) (j : S1x512x128.Idx) :
    k0_pay3 v0 v1 v2 v3 v4 v5 j = (v3 (dn j) * v0 (dn j) + v4 (dn j) * v1 (dn j) + v5 (dn j) * v2 (dn j) : EReal) := by
  unfold k0_pay3
  exact shapeCast_addUnit_apply _ _ _ j

theorem store7 (j : S1x512x128.Idx) : k0_pay3 (k0_pay24 (k0_pay17 l0 l1 l2 l3) s0) (k0_pay25 (k0_pay11 l0 l1 l2 l3) (k0_pay13 l0 l1 l2 l3) s1) (k0_pay26 (k0_pay10 l0 l1 l2 l3) (k0_pay11 l0 l1 l2 l3) (k0_pay12 l0 l1 l2 l3) (k0_pay13 l0 l1 l2 l3) s2) (k0_pay27 (k0_pay10 l0 l1 l2 l3) (k0_pay11 l0 l1 l2 l3) (k0_pay12 l0 l1 l2 l3) (k0_pay13 l0 l1 l2 l3) s0) (k0_pay28 (k0_pay10 l0 l1 l2 l3) (k0_pay11 l0 l1 l2 l3) (k0_pay12 l0 l1 l2 l3) (k0_pay13 l0 l1 l2 l3) s1) (k0_pay29 (k0_pay11 l0 l1 l2 l3) (k0_pay12 l0 l1 l2 l3) s2) j
    = covScaled (qAt l0 l1 l2 l3 (dn j)) (sAt s0 s1 s2 (dn j)) 2 1 := by
  rw [k0_pay3_at, m10_at, m11_at, m12_at, m20_at, m21_at, m22_at]
  exact rfl

theorem k0_pay4_at (v0 v1 v2 : FVec Ideal S512x128 .f32) (j : S1x512x128.Idx) :
    k0_pay4 v0 v1 v2 j = (v0 (dn j) * v0 (dn j) + v1 (dn j) * v1 (dn j) + v2 (dn j) * v2 (dn j) : EReal) := by
  unfold k0_pay4
  exact shapeCast_addUnit_apply _ _ _ j

theorem store8 (j : S1x512x128.Idx) : k0_pay4 (k0_pay27 (k0_pay10 l0 l1 l2 l3) (k0_pay11 l0 l1 l2 l3) (k0_pay12 l0 l1 l2 l3) (k0_pay13 l0 l1 l2 l3) s0) (k0_pay28 (k0_pay10 l0 l1 l2 l3) (k0_pay11 l0 l1 l2 l3) (k0_pay12 l0 l1 l2 l3) (k0_pay13 l0 l1 l2 l3) s1) (k0_pay29 (k0_pay11 l0 l1 l2 l3) (k0_pay12 l0 l1 l2 l3) s2) j
    = covScaled (qAt l0 l1 l2 l3 (dn j)) (sAt s0 s1 s2 (dn j)) 2 2 := by
  rw [k0_pay4_at, m20_at, m21_at, m22_at]
  exact rfl

end Cert.KernelIdeal.Body

end
-- ==== Proof.BodyBlock.lean ====
/-
  The block the body leaves, as one function of the two input blocks.

  The body's nine stores tile the `[9, 512, 128]` staging block by components. At `(e, r, l)` the block holds the
  covariance entry `(e / 3, e % 3)` of the quaternion `(x0 (0, r, l), …, x0 (3, r, l))` and the scale
  `(x1 (0, r, l), x1 (1, r, l), x1 (2, r, l))` that the two input blocks hold at the same row and lane.
-/
import proofs.«124191_j74457553044377_2_alg».proof.Proof.Gen.KernelIdeal.Frame
import proofs.«124191_j74457553044377_2_alg».proof.Proof.BodyPoint
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.ValueIdx Cert.RowCov

/-- A store component `e` of nine is the matrix entry `(e / 3, e % 3)`. -/
def div3 (e : Fin 9) : Fin 3 := ⟨e.val / 3, Nat.div_lt_of_lt_mul e.isLt⟩
def mod3 (e : Fin 9) : Fin 3 := ⟨e.val % 3, Nat.mod_lt _ (by decide)⟩

/-- The quaternion and the scale a pair of input blocks hold at row `r`, lane `l`. -/
def qBlk (x0 : S4x512x128.Idx → EReal) (r : Fin 512) (l : Fin 128) : Fin 4 → EReal := fun c => x0 (ix3 c r l)
def sBlk (x1 : S3x512x128.Idx → EReal) (r : Fin 512) (l : Fin 128) : Fin 3 → EReal := fun j => x1 (ix3 j r l)

/-- The output block as a function of the input blocks. -/
def blockCov (x0 : S4x512x128.Idx → EReal) (x1 : S3x512x128.Idx → EReal) : S9x512x128.Idx → EReal := fun Y =>
  covScaled (qBlk x0 (Y 1) (Y 2)) (sBlk x1 (Y 1) (Y 2)) (div3 (Y 0)) (mod3 (Y 0))

variable (x0 : Vec Ideal S4x512x128 .f32) (x1 : Vec Ideal S3x512x128 .f32)

/-- The four loaded component blocks at a point are the input block's four components at that row and lane. -/
theorem qAt_eq (x : S1x512x128.Idx) (r : Fin 512) (l : Fin 128) (hr : r.val = (x 1).val) (hl : l.val = (x 2).val) :
    qAt (View.ld x0 r0_0) (View.ld x0 r0_1) (View.ld x0 r0_2) (View.ld x0 r0_3) (dn x) = qBlk x0 r l := by
  funext c
  match c with
  | ⟨0, _⟩ => exact congrArg x0 (funext fun a => Fin.ext (by match a with | ⟨0, _⟩ => rfl | ⟨1, _⟩ => (show 0 + 1 * (x 1).val = r.val; omega) | ⟨2, _⟩ => (show 0 + 1 * (x 2).val = l.val; omega)))
  | ⟨1, _⟩ => exact congrArg x0 (funext fun a => Fin.ext (by match a with | ⟨0, _⟩ => rfl | ⟨1, _⟩ => (show 0 + 1 * (x 1).val = r.val; omega) | ⟨2, _⟩ => (show 0 + 1 * (x 2).val = l.val; omega)))
  | ⟨2, _⟩ => exact congrArg x0 (funext fun a => Fin.ext (by match a with | ⟨0, _⟩ => rfl | ⟨1, _⟩ => (show 0 + 1 * (x 1).val = r.val; omega) | ⟨2, _⟩ => (show 0 + 1 * (x 2).val = l.val; omega)))
  | ⟨3, _⟩ => exact congrArg x0 (funext fun a => Fin.ext (by match a with | ⟨0, _⟩ => rfl | ⟨1, _⟩ => (show 0 + 1 * (x 1).val = r.val; omega) | ⟨2, _⟩ => (show 0 + 1 * (x 2).val = l.val; omega)))

theorem sAt_eq (x : S1x512x128.Idx) (r : Fin 512) (l : Fin 128) (hr : r.val = (x 1).val) (hl : l.val = (x 2).val) :
    sAt (View.ld x1 r0_4) (View.ld x1 r0_5) (View.ld x1 r0_6) (dn x) = sBlk x1 r l := by
  funext c
  match c with
  | ⟨0, _⟩ => exact congrArg x1 (funext fun a => Fin.ext (by match a with | ⟨0, _⟩ => rfl | ⟨1, _⟩ => (show 0 + 1 * (x 1).val = r.val; omega) | ⟨2, _⟩ => (show 0 + 1 * (x 2).val = l.val; omega)))
  | ⟨1, _⟩ => exact congrArg x1 (funext fun a => Fin.ext (by match a with | ⟨0, _⟩ => rfl | ⟨1, _⟩ => (show 0 + 1 * (x 1).val = r.val; omega) | ⟨2, _⟩ => (show 0 + 1 * (x 2).val = l.val; omega)))
  | ⟨2, _⟩ => exact congrArg x1 (funext fun a => Fin.ext (by match a with | ⟨0, _⟩ => rfl | ⟨1, _⟩ => (show 0 + 1 * (x 1).val = r.val; omega) | ⟨2, _⟩ => (show 0 + 1 * (x 2).val = l.val; omega)))

/-! ## Each store's payload is `blockCov` under its rectangle -/

theorem piece0 (x : S1x512x128.Idx) : k0_pay30 (k0_pay21 (k0_pay14 (View.ld x0 r0_0) (View.ld x0 r0_1) (View.ld x0 r0_2) (View.ld x0 r0_3)) (View.ld x1 r0_4)) (k0_pay22 (k0_pay15 (View.ld x0 r0_0) (View.ld x0 r0_1) (View.ld x0 r0_2) (View.ld x0 r0_3)) (View.ld x1 r0_5)) (k0_pay23 (k0_pay16 (View.ld x0 r0_0) (View.ld x0 r0_1) (View.ld x0 r0_2) (View.ld x0 r0_3)) (View.ld x1 r0_6)) x
    = blockCov x0 x1 (r0_7.emb x) := by
  have hx : (x 0).val < 1 := (x 0).isLt
  have h0 : ((r0_7.emb x) 0 : Fin 9) = (0 : Fin 9) := Fin.ext (by show 0 + 1 * (x 0).val = 0; omega)
  rw [store0]
  unfold blockCov
  rw [h0, qAt_eq x0 x ((r0_7.emb x) 1) ((r0_7.emb x) 2) (by show 0 + 1 * (x 1).val = (x 1).val; omega) (by show 0 + 1 * (x 2).val = (x 2).val; omega),
    sAt_eq x1 x ((r0_7.emb x) 1) ((r0_7.emb x) 2) (by show 0 + 1 * (x 1).val = (x 1).val; omega) (by show 0 + 1 * (x 2).val = (x 2).val; omega)]
  exact rfl

theorem piece1 (x : S1x512x128.Idx) : k0_pay31 (k0_pay21 (k0_pay14 (View.ld x0 r0_0) (View.ld x0 r0_1) (View.ld x0 r0_2) (View.ld x0 r0_3)) (View.ld x1 r0_4)) (k0_pay22 (k0_pay15 (View.ld x0 r0_0) (View.ld x0 r0_1) (View.ld x0 r0_2) (View.ld x0 r0_3)) (View.ld x1 r0_5)) (k0_pay23 (k0_pay16 (View.ld x0 r0_0) (View.ld x0 r0_1) (View.ld x0 r0_2) (View.ld x0 r0_3)) (View.ld x1 r0_6)) (k0_pay24 (k0_pay17 (View.ld x0 r0_0) (View.ld x0 r0_1) (View.ld x0 r0_2) (View.ld x0 r0_3)) (View.ld x1 r0_4)) (k0_pay25 (k0_pay11 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay26 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_6)) x
    = blockCov x0 x1 (r0_8.emb x) := by
  have hx : (x 0).val < 1 := (x 0).isLt
  have h0 : ((r0_8.emb x) 0 : Fin 9) = (1 : Fin 9) := Fin.ext (by show 1 + 1 * (x 0).val = 1; omega)
  rw [store1]
  unfold blockCov
  rw [h0, qAt_eq x0 x ((r0_8.emb x) 1) ((r0_8.emb x) 2) (by show 0 + 1 * (x 1).val = (x 1).val; omega) (by show 0 + 1 * (x 2).val = (x 2).val; omega),
    sAt_eq x1 x ((r0_8.emb x) 1) ((r0_8.emb x) 2) (by show 0 + 1 * (x 1).val = (x 1).val; omega) (by show 0 + 1 * (x 2).val = (x 2).val; omega)]
  exact rfl

theorem piece2 (x : S1x512x128.Idx) : k0_pay32 (k0_pay21 (k0_pay14 (View.ld x0 r0_0) (View.ld x0 r0_1) (View.ld x0 r0_2) (View.ld x0 r0_3)) (View.ld x1 r0_4)) (k0_pay22 (k0_pay15 (View.ld x0 r0_0) (View.ld x0 r0_1) (View.ld x0 r0_2) (View.ld x0 r0_3)) (View.ld x1 r0_5)) (k0_pay23 (k0_pay16 (View.ld x0 r0_0) (View.ld x0 r0_1) (View.ld x0 r0_2) (View.ld x0 r0_3)) (View.ld x1 r0_6)) (k0_pay27 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_4)) (k0_pay28 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay29 (k0_pay11 (View.ld x0 r0_0) (View.ld x0 r0_1) (View.ld x0 r0_2) (View.ld x0 r0_3)) (k0_pay12 (View.ld x0 r0_0) (View.ld x0 r0_1) (View.ld x0 r0_2) (View.ld x0 r0_3)) (View.ld x1 r0_6)) x
    = blockCov x0 x1 (r0_9.emb x) := by
  have hx : (x 0).val < 1 := (x 0).isLt
  have h0 : ((r0_9.emb x) 0 : Fin 9) = (2 : Fin 9) := Fin.ext (by show 2 + 1 * (x 0).val = 2; omega)
  rw [store2]
  unfold blockCov
  rw [h0, qAt_eq x0 x ((r0_9.emb x) 1) ((r0_9.emb x) 2) (by show 0 + 1 * (x 1).val = (x 1).val; omega) (by show 0 + 1 * (x 2).val = (x 2).val; omega),
    sAt_eq x1 x ((r0_9.emb x) 1) ((r0_9.emb x) 2) (by show 0 + 1 * (x 1).val = (x 1).val; omega) (by show 0 + 1 * (x 2).val = (x 2).val; omega)]
  exact rfl

theorem piece3 (x : S1x512x128.Idx) : k0_pay33 (k0_pay21 (k0_pay14 (View.ld x0 r0_0) (View.ld x0 r0_1) (View.ld x0 r0_2) (View.ld x0 r0_3)) (View.ld x1 r0_4)) (k0_pay22 (k0_pay15 (View.ld x0 r0_0) (View.ld x0 r0_1) (View.ld x0 r0_2) (View.ld x0 r0_3)) (View.ld x1 r0_5)) (k0_pay23 (k0_pay16 (View.ld x0 r0_0) (View.ld x0 r0_1) (View.ld x0 r0_2) (View.ld x0 r0_3)) (View.ld x1 r0_6)) (k0_pay24 (k0_pay17 (View.ld x0 r0_0) (View.ld x0 r0_1) (View.ld x0 r0_2) (View.ld x0 r0_3)) (View.ld x1 r0_4)) (k0_pay25 (k0_pay11 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay26 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_6)) x
    = blockCov x0 x1 (r0_10.emb x) := by
  have hx : (x 0).val < 1 := (x 0).isLt
  have h0 : ((r0_10.emb x) 0 : Fin 9) = (3 : Fin 9) := Fin.ext (by show 3 + 1 * (x 0).val = 3; omega)
  rw [store3]
  unfold blockCov
  rw [h0, qAt_eq x0 x ((r0_10.emb x) 1) ((r0_10.emb x) 2) (by show 0 + 1 * (x 1).val = (x 1).val; omega) (by show 0 + 1 * (x 2).val = (x 2).val; omega),
    sAt_eq x1 x ((r0_10.emb x) 1) ((r0_10.emb x) 2) (by show 0 + 1 * (x 1).val = (x 1).val; omega) (by show 0 + 1 * (x 2).val = (x 2).val; omega)]
  exact rfl

theorem piece4 (x : S1x512x128.Idx) : k0_pay34 (k0_pay24 (k0_pay17 (View.ld x0 r0_0) (View.ld x0 r0_1) (View.ld x0 r0_2) (View.ld x0 r0_3)) (View.ld x1 r0_4)) (k0_pay25 (k0_pay11 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay26 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_6)) x
    = blockCov x0 x1 (r0_11.emb x) := by
  have hx : (x 0).val < 1 := (x 0).isLt
  have h0 : ((r0_11.emb x) 0 : Fin 9) = (4 : Fin 9) := Fin.ext (by show 4 + 1 * (x 0).val = 4; omega)
  rw [store4]
  unfold blockCov
  rw [h0, qAt_eq x0 x ((r0_11.emb x) 1) ((r0_11.emb x) 2) (by show 0 + 1 * (x 1).val = (x 1).val; omega) (by show 0 + 1 * (x 2).val = (x 2).val; omega),
    sAt_eq x1 x ((r0_11.emb x) 1) ((r0_11.emb x) 2) (by show 0 + 1 * (x 1).val = (x 1).val; omega) (by show 0 + 1 * (x 2).val = (x 2).val; omega)]
  exact rfl

theorem piece5 (x : S1x512x128.Idx) : k0_pay1 (k0_pay24 (k0_pay17 (View.ld x0 r0_0) (View.ld x0 r0_1) (View.ld x0 r0_2) (View.ld x0 r0_3)) (View.ld x1 r0_4)) (k0_pay25 (k0_pay11 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay26 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_6)) (k0_pay27 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_4)) (k0_pay28 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay29 (k0_pay11 (View.ld x0 r0_0) (View.ld x0 r0_1) (View.ld x0 r0_2) (View.ld x0 r0_3)) (k0_pay12 (View.ld x0 r0_0) (View.ld x0 r0_1) (View.ld x0 r0_2) (View.ld x0 r0_3)) (View.ld x1 r0_6)) x
    = blockCov x0 x1 (r0_12.emb x) := by
  have hx : (x 0).val < 1 := (x 0).isLt
  have h0 : ((r0_12.emb x) 0 : Fin 9) = (5 : Fin 9) := Fin.ext (by show 5 + 1 * (x 0).val = 5; omega)
  rw [store5]
  unfold blockCov
  rw [h0, qAt_eq x0 x ((r0_12.emb x) 1) ((r0_12.emb x) 2) (by show 0 + 1 * (x 1).val = (x 1).val; omega) (by show 0 + 1 * (x 2).val = (x 2).val; omega),
    sAt_eq x1 x ((r0_12.emb x) 1) ((r0_12.emb x) 2) (by show 0 + 1 * (x 1).val = (x 1).val; omega) (by show 0 + 1 * (x 2).val = (x 2).val; omega)]
  exact rfl

theorem piece6 (x : S1x512x128.Idx) : k0_pay2 (k0_pay21 (k0_pay14 (View.ld x0 r0_0) (View.ld x0 r0_1) (View.ld x0 r0_2) (View.ld x0 r0_3)) (View.ld x1 r0_4)) (k0_pay22 (k0_pay15 (View.ld x0 r0_0) (View.ld x0 r0_1) (View.ld x0 r0_2) (View.ld x0 r0_3)) (View.ld x1 r0_5)) (k0_pay23 (k0_pay16 (View.ld x0 r0_0) (View.ld x0 r0_1) (View.ld x0 r0_2) (View.ld x0 r0_3)) (View.ld x1 r0_6)) (k0_pay27 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_4)) (k0_pay28 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay29 (k0_pay11 (View.ld x0 r0_0) (View.ld x0 r0_1) (View.ld x0 r0_2) (View.ld x0 r0_3)) (k0_pay12 (View.ld x0 r0_0) (View.ld x0 r0_1) (View.ld x0 r0_2) (View.ld x0 r0_3)) (View.ld x1 r0_6)) x
    = blockCov x0 x1 (r0_13.emb x) := by
  have hx : (x 0).val < 1 := (x 0).isLt
  have h0 : ((r0_13.emb x) 0 : Fin 9) = (6 : Fin 9) := Fin.ext (by show 6 + 1 * (x 0).val = 6; omega)
  rw [store6]
  unfold blockCov
  rw [h0, qAt_eq x0 x ((r0_13.emb x) 1) ((r0_13.emb x) 2) (by show 0 + 1 * (x 1).val = (x 1).val; omega) (by show 0 + 1 * (x 2).val = (x 2).val; omega),
    sAt_eq x1 x ((r0_13.emb x) 1) ((r0_13.emb x) 2) (by show 0 + 1 * (x 1).val = (x 1).val; omega) (by show 0 + 1 * (x 2).val = (x 2).val; omega)]
  exact rfl

theorem piece7 (x : S1x512x128.Idx) : k0_pay3 (k0_pay24 (k0_pay17 (View.ld x0 r0_0) (View.ld x0 r0_1) (View.ld x0 r0_2) (View.ld x0 r0_3)) (View.ld x1 r0_4)) (k0_pay25 (k0_pay11 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay26 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_6)) (k0_pay27 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_4)) (k0_pay28 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay29 (k0_pay11 (View.ld x0 r0_0) (View.ld x0 r0_1) (View.ld x0 r0_2) (View.ld x0 r0_3)) (k0_pay12 (View.ld x0 r0_0) (View.ld x0 r0_1) (View.ld x0 r0_2) (View.ld x0 r0_3)) (View.ld x1 r0_6)) x
    = blockCov x0 x1 (r0_14.emb x) := by
  have hx : (x 0).val < 1 := (x 0).isLt
  have h0 : ((r0_14.emb x) 0 : Fin 9) = (7 : Fin 9) := Fin.ext (by show 7 + 1 * (x 0).val = 7; omega)
  rw [store7]
  unfold blockCov
  rw [h0, qAt_eq x0 x ((r0_14.emb x) 1) ((r0_14.emb x) 2) (by show 0 + 1 * (x 1).val = (x 1).val; omega) (by show 0 + 1 * (x 2).val = (x 2).val; omega),
    sAt_eq x1 x ((r0_14.emb x) 1) ((r0_14.emb x) 2) (by show 0 + 1 * (x 1).val = (x 1).val; omega) (by show 0 + 1 * (x 2).val = (x 2).val; omega)]
  exact rfl

theorem piece8 (x : S1x512x128.Idx) : k0_pay4 (k0_pay27 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_4)) (k0_pay28 (k0_pay10 (View.ld x0 r0_0) (View.ld x0 r0_1) (View.ld x0 r0_2) (View.ld x0 r0_3)) (k0_pay11 (View.ld x0 r0_0) (View.ld x0 r0_1) (View.ld x0 r0_2) (View.ld x0 r0_3)) (k0_pay12 (View.ld x0 r0_0) (View.ld x0 r0_1) (View.ld x0 r0_2) (View.ld x0 r0_3)) (k0_pay13 (View.ld x0 r0_0) (View.ld x0 r0_1) (View.ld x0 r0_2) (View.ld x0 r0_3)) (View.ld x1 r0_5)) (k0_pay29 (k0_pay11 (View.ld x0 r0_0) (View.ld x0 r0_1) (View.ld x0 r0_2) (View.ld x0 r0_3)) (k0_pay12 (View.ld x0 r0_0) (View.ld x0 r0_1) (View.ld x0 r0_2) (View.ld x0 r0_3)) (View.ld x1 r0_6)) x
    = blockCov x0 x1 (r0_15.emb x) := by
  have hx : (x 0).val < 1 := (x 0).isLt
  have h0 : ((r0_15.emb x) 0 : Fin 9) = (8 : Fin 9) := Fin.ext (by show 8 + 1 * (x 0).val = 8; omega)
  rw [store8]
  unfold blockCov
  rw [h0, qAt_eq x0 x ((r0_15.emb x) 1) ((r0_15.emb x) 2) (by show 0 + 1 * (x 1).val = (x 1).val; omega) (by show 0 + 1 * (x 2).val = (x 2).val; omega),
    sAt_eq x1 x ((r0_15.emb x) 1) ((r0_15.emb x) 2) (by show 0 + 1 * (x 1).val = (x 1).val; omega) (by show 0 + 1 * (x 2).val = (x 2).val; omega)]
  exact rfl

/-- The staged output block after the body is `blockCov` of the staged input blocks. -/
theorem out_eq : out0_2 x0 x1 = blockCov x0 x1 := by
  funext Y
  unfold out0_2
  refine View.canon_apply_of_pieces (Val := Elt Ideal) (S := S9x512x128) (e := .f32) (blockCov x0 x1) _ ?_ Y (cover0_2 _ _ _ _ _ _ _ _ _ Y)
  intro p hp
  simp only [List.mem_cons, List.mem_nil_iff, or_false] at hp
  rcases hp with rfl | rfl | rfl | rfl | rfl | rfl | rfl | rfl | rfl
  · exact piece8 x0 x1
  · exact piece7 x0 x1
  · exact piece6 x0 x1
  · exact piece5 x0 x1
  · exact piece4 x0 x1
  · exact piece3 x0 x1
  · exact piece2 x0 x1
  · exact piece1 x0 x1
  · exact piece0 x0 x1

end Cert.KernelIdeal.Body

end
-- ==== Proof.ArrayCov.lean ====
/-
  From blocks to the array.

  Grid point `t` stages rows `512 t … 512 t + 511` of the three `[·, 31744, 128]` arrays, all components, all
  lanes; the output's 62 blocks tile its array. What point `t` writes back is block `t` of ONE function of the
  two input arrays as the region finds them: at `(e, R, l)` the covariance entry `(e / 3, e % 3)` of the
  quaternion and the scale the inputs hold at row `R`, lane `l`. So the output array ends holding that function.
-/
import proofs.«124191_j74457553044377_2_alg».proof.Proof.Gen.KernelIdeal.Frame
import proofs.«124191_j74457553044377_2_alg».proof.Proof.BodyBlock
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx Cert.RowCov
open Idealize.SL.Sem
open Idealize.ShloMosaic.Pipeline (Dat Cfg Window)

/-- The output array as a function of the two input arrays. -/
def arrayCov (A : S4x31744x128.Idx → EReal) (B : S3x31744x128.Idx → EReal) : S9x31744x128.Idx → EReal := fun Y =>
  covScaled (fun c => A (ix3 c (Y 1) (Y 2))) (fun j => B (ix3 j (Y 1) (Y 2))) (div3 (Y 0)) (mod3 (Y 0))

/-- A block function of blocks that are rows `512 T …` of two arrays is the array function there. -/
theorem blockCov_at (A : S4x31744x128.Idx → EReal) (B : S3x31744x128.Idx → EReal)
    (x0 : S4x512x128.Idx → EReal) (x1 : S3x512x128.Idx → EReal) (T : Nat)
    (hx0 : ∀ (c : Fin 4) (r : Fin 512) (l : Fin 128) (R : Fin 31744), R.val = T * 512 + r.val → x0 (ix3 c r l) = A (ix3 c R l))
    (hx1 : ∀ (c : Fin 3) (r : Fin 512) (l : Fin 128) (R : Fin 31744), R.val = T * 512 + r.val → x1 (ix3 c r l) = B (ix3 c R l))
    (j : S9x512x128.Idx) (J : S9x31744x128.Idx) (h0 : (J 0).val = (j 0).val) (h1 : (J 1).val = T * 512 + (j 1).val)
    (h2 : (J 2).val = (j 2).val) : blockCov x0 x1 j = arrayCov A B J := by
  unfold blockCov arrayCov
  have e0 : (J 0 : Fin 9) = j 0 := Fin.ext h0
  have e2 : (J 2 : Fin 128) = j 2 := Fin.ext h2
  have eq : qBlk x0 (j 1) (j 2) = fun c => A (ix3 c (J 1) (J 2)) := funext fun c => by
    rw [e2]; exact hx0 c (j 1) (j 2) (J 1) h1
  have es : sBlk x1 (j 1) (j 2) = fun c => B (ix3 c (J 1) (J 2)) := funext fun c => by
    rw [e2]; exact hx1 c (j 1) (j 2) (J 1) h1
  rw [eq, es, e0]

variable {F : FTy → Type} [FloatOps F]
variable (m : (ℓ : Loc nD τ sig) → Buf (Elt Ideal) ℓ) (ρ : Dev nD → PrngReg)

/-- The printed index maps over the 62 grid points: component and lane blocks are block 0, the row block is the point. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0 :=
  (by decide +kernel : ∀ t : Fin grid0.N, _)

/-- For ANY contents `A`, `B` of the two input arrays: the body's block of the blocks point `t` stages, cut to the
    output window, is block `t` of `arrayCov A B`. -/
theorem flushed_of_arrays (c : Dev nD) (A : Buf (Elt Ideal) ((c : Thread nD τ).loc main_v3)) (B : Buf (Elt Ideal) ((c : Thread nD τ).loc main_v5))
    (t : Fin cfg0.N) :
    (cfg0.win 2).cut (grid0.coords t) (out0_2 (((cfg0.win 0).blk t).view.read (Elt Ideal) A) (((cfg0.win 1).blk t).view.read (Elt Ideal) B))
      = ((cfg0.win 2).blk t).view.read (Elt Ideal) (arrayCov A B) := by
  rw [out_eq (((cfg0.win 0).blk t).view.read (Elt Ideal) A) (((cfg0.win 1).blk t).view.read (Elt Ideal) B)]
  obtain ⟨a0, a1, a2, b0, b1, b2, c0, c1, c2⟩ := idx_facts t
  funext j
  refine blockCov_at A B (((cfg0.win 0).blk t).view.read (Elt Ideal) A) (((cfg0.win 1).blk t).view.read (Elt Ideal) B) t.val ?_ ?_ j
    (((cfg0.win 2).blk t).view.emb j) ?_ ?_ ?_
  · intro cc r l R hR
    show A (((cfg0.win 0).blk t).view.emb (ix3 cc r l)) = A (ix3 cc R l)
    refine congrArg A (funext fun a => Fin.ext ?_)
    match a with
    | ⟨0, _⟩ => show win0_0.index t (0 : Fin 3) * 4 + 1 * cc.val = cc.val; omega
    | ⟨1, _⟩ => show win0_0.index t (1 : Fin 3) * 512 + 1 * r.val = R.val; omega
    | ⟨2, _⟩ => show win0_0.index t (2 : Fin 3) * 128 + 1 * l.val = l.val; omega
  · intro cc r l R hR
    show B (((cfg0.win 1).blk t).view.emb (ix3 cc r l)) = B (ix3 cc R l)
    refine congrArg B (funext fun a => Fin.ext ?_)
    match a with
    | ⟨0, _⟩ => show win0_1.index t (0 : Fin 3) * 3 + 1 * cc.val = cc.val; omega
    | ⟨1, _⟩ => show win0_1.index t (1 : Fin 3) * 512 + 1 * r.val = R.val; omega
    | ⟨2, _⟩ => show win0_1.index t (2 : Fin 3) * 128 + 1 * l.val = l.val; omega
  · show win0_2.index t (0 : Fin 3) * 9 + 1 * (j 0).val = (j 0).val; omega
  · show win0_2.index t (1 : Fin 3) * 512 + 1 * (j 1).val = t.val * 512 + (j 1).val; omega
  · show win0_2.index t (2 : Fin 3) * 128 + 1 * (j 2).val = (j 2).val; omega

/-- What point `t` writes back is block `t` of `arrayCov` of the input arrays as the region finds them. -/
theorem flushed_eq (c : Dev nD) (t : Fin cfg0.N) :
    (dats m 0 c).flushed 2 t = ((cfg0.win 2).blk t).view.read (Elt Ideal) (arrayCov (V m c main_v3) (V m c main_v5)) := by
  show (cfg0.win 2).cut (grid0.coords t) ((dats m 0 c).after 2 t) = _
  rw [after0_2]
  exact flushed_of_arrays c (V m c main_v3) (V m c main_v5) t

/-- An index of the output array is in point `t`'s block iff each coordinate is in the block's range on its axis. -/
theorem mem_blk (t : Fin cfg0.N) (i : S9x31744x128.Idx) :
    i ∈ ((cfg0.win 2).blk t).view.set ↔ ∀ a : Fin 3, win0_2.index t a * S9x512x128.size a ≤ (i a).val
      ∧ (i a).val < win0_2.index t a * S9x512x128.size a + S9x512x128.size a := by
  show i ∈ ((View.whole main_v6).slice (win0_2.rect t)).set ↔ _
  rw [View.set_slice_whole, Rect.mem_set_unit]
  exact Iff.rfl

/-- Every index of the output array is in the block of the point its row falls in. -/
theorem covered (i : S9x31744x128.Idx) : ∃ t : Fin cfg0.N, (cfg0.win 2).flush t = true ∧ i ∈ ((cfg0.win 2).blk t).view.set := by
  have hi0 : (i 0).val < 9 := (i 0).isLt
  have hi1 : (i 1).val < 31744 := (i 1).isLt
  have hi2 : (i 2).val < 128 := (i 2).isLt
  have hN : (i 1).val / 512 < cfg0.N := by show (i 1).val / 512 < grid0.N; rw [N_0]; omega
  refine ⟨⟨(i 1).val / 512, hN⟩, flush0_2 _, ?_⟩
  obtain ⟨-, -, -, -, -, -, c0, c1, c2⟩ := idx_facts ⟨(i 1).val / 512, hN⟩
  have c1' : win0_2.index ⟨(i 1).val / 512, hN⟩ (1 : Fin 3) = (i 1).val / 512 := c1
  rw [mem_blk]
  intro a
  match a with
  | ⟨0, _⟩ => show win0_2.index ⟨(i 1).val / 512, hN⟩ (0 : Fin 3) * 9 ≤ (i 0).val ∧ (i 0).val < win0_2.index ⟨(i 1).val / 512, hN⟩ (0 : Fin 3) * 9 + 9; omega
  | ⟨1, _⟩ => show win0_2.index ⟨(i 1).val / 512, hN⟩ (1 : Fin 3) * 512 ≤ (i 1).val ∧ (i 1).val < win0_2.index ⟨(i 1).val / 512, hN⟩ (1 : Fin 3) * 512 + 512; omega
  | ⟨2, _⟩ => show win0_2.index ⟨(i 1).val / 512, hN⟩ (2 : Fin 3) * 128 ≤ (i 2).val ∧ (i 2).val < win0_2.index ⟨(i 1).val / 512, hN⟩ (2 : Fin 3) * 128 + 128; omega

/-- The output array after the region. -/
theorem final (c : Dev nD) : (dats m 0 c).arrAt 2 cfg0.N = arrayCov (V m c main_v3) (V m c main_v5) :=
  (dats m 0 c).arrAt_eq_of_cover 2 (arrayCov (V m c main_v3) (V m c main_v5)) (fun t _ => flushed_eq m c t) covered

end Cert.KernelIdeal.Body

end
-- ==== Proof.HostLayout.lean ====
/-
  The layout operations around the region.

  Before the region each argument is padded with 63232 more rows, transposed to component-major, and its long
  axis regrouped in rows of 128 lanes: entry `(c, R, l)` of the staged array is entry `(128 R + l, c)` of the
  argument when that row exists. After the region the `[9, 31744, 128]` output is flattened, transposed back to
  row-major, cut to the first 4000000 rows and regrouped three by three: entry `(n, i, k)` of the result is entry
  `(3 i + k, n / 128, n % 128)` of the output. Both are stated for arbitrary arrays.
-/
import proofs.«124191_j74457553044377_2_alg».proof.Proof.Gen.KernelIdeal.Frame
import proofs.«124191_j74457553044377_2_alg».proof.Proof.ArrayCov
import Idealize.ShloMosaic.Lib.Pipeline.Value
import Idealize.ShloMosaic.Lib.KernelVsHost
import Idealize.ShloMosaic.Lib.ValueIdx

set_option maxRecDepth 16384

noncomputable section

namespace Cert.KernelIdeal.Body

open Cert.KernelIdeal Cert.KernelIdeal.Gen Idealize.ShloMosaic Idealize.ShloMosaic.ValueIdx Cert.RowCov

/-- The staged quaternions: entry `(c, R, l)` is the argument's entry `(n, c)` for `n = 128 R + l < 4000000`. -/
theorem rot_layout_apply (x : S4000000x4.Idx → EReal) (v : S_.Idx → EReal) (cc : Fin 4) (R : Fin 31744) (l : Fin 128)
    (n : Fin 4000000) (hn : n.val = R.val * 128 + l.val) :
    (shapeCast S4x31744x128 (transpose S4x4063232 [1, 0] (pad S4063232x4 ![0, 0] ![63232, 0] ![0, 0] x v pads_S4000000x4_S4063232x4_0632320_000 h_S_) transposes_S4063232x4_S4x4063232_1_0) shapeCasts_S4x4063232_S4x31744x128) (ix3 cc R l) = x (ix2 n cc) := by
  have hR : R.val < 31744 := R.isLt
  have hl : l.val < 128 := l.isLt
  have hc : cc.val < 4 := cc.isLt
  have hN : R.val * 128 + l.val < 4063232 := by omega
  refine (shapeCast_apply _ shapeCasts_S4x4063232_S4x31744x128 (ix3 cc R l) (ix2 cc (⟨R.val * 128 + l.val, hN⟩ : Fin 4063232))
    (by rewrite [Shape.rowMajor_val_two, Shape.rowMajor_val_three]; show cc.val * 4063232 + (R.val * 128 + l.val) = (cc.val * 31744 + R.val) * 128 + l.val; omega)).trans ?_
  refine (transpose_apply [1, 0] _ transposes_S4063232x4_S4x4063232_1_0 (ix2 cc (⟨R.val * 128 + l.val, hN⟩ : Fin 4063232)) (ix2 (⟨R.val * 128 + l.val, hN⟩ : Fin 4063232) cc)
    (fun b => by match b with | ⟨0, _⟩ => rfl | ⟨1, _⟩ => rfl)).trans ?_
  exact pad_apply_of_inside ![0, 0] ![63232, 0] ![0, 0] x v pads_S4000000x4_S4063232x4_0632320_000 h_S_ (ix2 (⟨R.val * 128 + l.val, hN⟩ : Fin 4063232) cc) (ix2 n cc)
    (fun a => by match a with
      | ⟨0, _⟩ => show R.val * 128 + l.val = 0 + n.val * (0 + 1); omega
      | ⟨1, _⟩ => show cc.val = 0 + cc.val * (0 + 1); omega)

/-- The staged scales, likewise. -/
theorem scl_layout_apply (x : S4000000x3.Idx → EReal) (v : S_.Idx → EReal) (cc : Fin 3) (R : Fin 31744) (l : Fin 128)
    (n : Fin 4000000) (hn : n.val = R.val * 128 + l.val) :
    (shapeCast S3x31744x128 (transpose S3x4063232 [1, 0] (pad S4063232x3 ![0, 0] ![63232, 0] ![0, 0] x v pads_S4000000x3_S4063232x3_0632320_000 h_S_) transposes_S4063232x3_S3x4063232_1_0) shapeCasts_S3x4063232_S3x31744x128) (ix3 cc R l) = x (ix2 n cc) := by
  have hR : R.val < 31744 := R.isLt
  have hl : l.val < 128 := l.isLt
  have hc : cc.val < 3 := cc.isLt
  have hN : R.val * 128 + l.val < 4063232 := by omega
  refine (shapeCast_apply _ shapeCasts_S3x4063232_S3x31744x128 (ix3 cc R l) (ix2 cc (⟨R.val * 128 + l.val, hN⟩ : Fin 4063232))
    (by rewrite [Shape.rowMajor_val_two, Shape.rowMajor_val_three]; show cc.val * 4063232 + (R.val * 128 + l.val) = (cc.val * 31744 + R.val) * 128 + l.val; omega)).trans ?_
  refine (transpose_apply [1, 0] _ transposes_S4063232x3_S3x4063232_1_0 (ix2 cc (⟨R.val * 128 + l.val, hN⟩ : Fin 4063232)) (ix2 (⟨R.val * 128 + l.val, hN⟩ : Fin 4063232) cc)
    (fun b => by match b with | ⟨0, _⟩ => rfl | ⟨1, _⟩ => rfl)).trans ?_
  exact pad_apply_of_inside ![0, 0] ![63232, 0] ![0, 0] x v pads_S4000000x3_S4063232x3_0632320_000 h_S_ (ix2 (⟨R.val * 128 + l.val, hN⟩ : Fin 4063232) cc) (ix2 n cc)
    (fun a => by match a with
      | ⟨0, _⟩ => show R.val * 128 + l.val = 0 + n.val * (0 + 1); omega
      | ⟨1, _⟩ => show cc.val = 0 + cc.val * (0 + 1); omega)

/-- The result: entry `(n, i, k)` is the output's entry `(3 i + k, n / 128, n % 128)`. -/
theorem tail_layout_apply (O : S9x31744x128.Idx → EReal) (n : Fin 4000000) (i k : Fin 3) (e : Fin 9) (R : Fin 31744) (l : Fin 128)
    (he : e.val = 3 * i.val + k.val) (hn : n.val = R.val * 128 + l.val) :
    (shapeCast S4000000x3x3 (extractStridedSlice S4000000x9 ![0, 0] (transpose S4063232x9 [1, 0] (shapeCast S9x4063232 O shapeCasts_S9x31744x128_S9x4063232) transposes_S9x4063232_S4063232x9_1_0) slices_S4063232x9_S4000000x9_0_0) shapeCasts_S4000000x9_S4000000x3x3) (ix3 n i k) = O (ix3 e R l) := by
  have hR : R.val < 31744 := R.isLt
  have hl : l.val < 128 := l.isLt
  have hi : i.val < 3 := i.isLt
  have hk : k.val < 3 := k.isLt
  have hnn : n.val < 4000000 := n.isLt
  have hN : n.val < 4063232 := by omega
  refine (shapeCast_apply _ shapeCasts_S4000000x9_S4000000x3x3 (ix3 n i k) (ix2 n e)
    (by rewrite [Shape.rowMajor_val_two, Shape.rowMajor_val_three]; show n.val * 9 + e.val = (n.val * 3 + i.val) * 3 + k.val; omega)).trans ?_
  refine (extractStridedSlice_apply ![0, 0] _ slices_S4063232x9_S4000000x9_0_0 (ix2 n e) (ix2 (⟨n.val, hN⟩ : Fin 4063232) e)
    (fun a => by match a with
      | ⟨0, _⟩ => show n.val = 0 + n.val; omega
      | ⟨1, _⟩ => show e.val = 0 + e.val; omega)).trans ?_
  refine (transpose_apply [1, 0] _ transposes_S9x4063232_S4063232x9_1_0 (ix2 (⟨n.val, hN⟩ : Fin 4063232) e) (ix2 e (⟨n.val, hN⟩ : Fin 4063232))
    (fun b => by match b with | ⟨0, _⟩ => rfl | ⟨1, _⟩ => rfl)).trans ?_
  exact shapeCast_apply O shapeCasts_S9x31744x128_S9x4063232 (ix2 e (⟨n.val, hN⟩ : Fin 4063232)) (ix3 e R l)
    (by rewrite [Shape.rowMajor_val_three, Shape.rowMajor_val_two]; show (e.val * 31744 + R.val) * 128 + l.val = e.val * 4063232 + n.val; omega)

/-- Put together, for arbitrary arguments and padding values: the tail of the output `arrayCov` of the staged
    arguments is the row-by-row covariance of the arguments. -/
theorem rows_of_layout (x0 : S4000000x4.Idx → EReal) (x1 : S4000000x3.Idx → EReal) (v w : S_.Idx → EReal) :
    (shapeCast S4000000x3x3 (extractStridedSlice S4000000x9 ![0, 0] (transpose S4063232x9 [1, 0] (shapeCast S9x4063232 (arrayCov (shapeCast S4x31744x128 (transpose S4x4063232 [1, 0] (pad S4063232x4 ![0, 0] ![63232, 0] ![0, 0] x0 v pads_S4000000x4_S4063232x4_0632320_000 h_S_) transposes_S4063232x4_S4x4063232_1_0) shapeCasts_S4x4063232_S4x31744x128) (shapeCast S3x31744x128 (transpose S3x4063232 [1, 0] (pad S4063232x3 ![0, 0] ![63232, 0] ![0, 0] x1 w pads_S4000000x3_S4063232x3_0632320_000 h_S_) transposes_S4063232x3_S3x4063232_1_0) shapeCasts_S3x4063232_S3x31744x128)) shapeCasts_S9x31744x128_S9x4063232) transposes_S9x4063232_S4063232x9_1_0) slices_S4063232x9_S4000000x9_0_0) shapeCasts_S4000000x9_S4000000x3x3) = covRowsScaled x0 x1 := by
  funext idx
  obtain ⟨n, i, k, rfl⟩ : ∃ (n : Fin 4000000) (i k : Fin 3), idx = ix3 n i k := ⟨idx 0, idx 1, idx 2, eq_ix3 idx⟩
  have hnn : n.val < 4000000 := n.isLt
  have hi : i.val < 3 := i.isLt
  have hk : k.val < 3 := k.isLt
  rw [tail_layout_apply _ n i k (⟨3 * i.val + k.val, by omega⟩ : Fin 9) (⟨n.val / 128, by omega⟩ : Fin 31744) (⟨n.val % 128, Nat.mod_lt _ (by decide)⟩ : Fin 128)
    rfl (by show n.val = n.val / 128 * 128 + n.val % 128; omega)]
  unfold arrayCov
  have hq : (fun c => (shapeCast S4x31744x128 (transpose S4x4063232 [1, 0] (pad S4063232x4 ![0, 0] ![63232, 0] ![0, 0] x0 v pads_S4000000x4_S4063232x4_0632320_000 h_S_) transposes_S4063232x4_S4x4063232_1_0) shapeCasts_S4x4063232_S4x31744x128) (ix3 c ((ix3 (⟨3 * i.val + k.val, by omega⟩ : Fin 9) (⟨n.val / 128, by omega⟩ : Fin 31744) (⟨n.val % 128, Nat.mod_lt _ (by decide)⟩ : Fin 128)) 1)
      ((ix3 (⟨3 * i.val + k.val, by omega⟩ : Fin 9) (⟨n.val / 128, by omega⟩ : Fin 31744) (⟨n.val % 128, Nat.mod_lt _ (by decide)⟩ : Fin 128)) 2))) = quat x0 n :=
    funext fun c => rot_layout_apply x0 v c _ _ n (by show n.val = n.val / 128 * 128 + n.val % 128; omega)
  have hs : (fun c => (shapeCast S3x31744x128 (transpose S3x4063232 [1, 0] (pad S4063232x3 ![0, 0] ![63232, 0] ![0, 0] x1 w pads_S4000000x3_S4063232x3_0632320_000 h_S_) transposes_S4063232x3_S3x4063232_1_0) shapeCasts_S3x4063232_S3x31744x128) (ix3 c ((ix3 (⟨3 * i.val + k.val, by omega⟩ : Fin 9) (⟨n.val / 128, by omega⟩ : Fin 31744) (⟨n.val % 128, Nat.mod_lt _ (by decide)⟩ : Fin 128)) 1)
      ((ix3 (⟨3 * i.val + k.val, by omega⟩ : Fin 9) (⟨n.val / 128, by omega⟩ : Fin 31744) (⟨n.val % 128, Nat.mod_lt _ (by decide)⟩ : Fin 128)) 2))) = scl x1 n :=
    funext fun c => scl_layout_apply x1 w c _ _ n (by show n.val = n.val / 128 * 128 + n.val % 128; omega)
  rw [hq, hs]
  have hd : div3 ((ix3 (⟨3 * i.val + k.val, by omega⟩ : Fin 9) (⟨n.val / 128, by omega⟩ : Fin 31744) (⟨n.val % 128, Nat.mod_lt _ (by decide)⟩ : Fin 128)) 0) = i :=
    Fin.ext (by show (3 * i.val + k.val) / 3 = i.val; omega)
  have hm : mod3 ((ix3 (⟨3 * i.val + k.val, by omega⟩ : Fin 9) (⟨n.val / 128, by omega⟩ : Fin 31744) (⟨n.val % 128, Nat.mod_lt _ (by decide)⟩ : Fin 128)) 0) = k :=
    Fin.ext (by show (3 * i.val + k.val) % 3 = k.val; omega)
  rw [hd, hm]
  exact rfl

end Cert.KernelIdeal.Body

end
-- ==== Proof.KernelRows.lean ====
/-
  The idealised kernel's run, with its result named.

  The region finds the two arguments padded, transposed and regrouped (the host operations before it); it leaves
  the output array at `arrayCov` of those; the host operations after it flatten, transpose back, cut the padding
  rows off and regroup. Through the layout lemmas the result is the row-by-row covariance of the arguments with
  each quaternion scaled by the reciprocal square root of its sum of squares.
-/
import proofs.«124191_j74457553044377_2_alg».proof.Proof.Gen.KernelIdeal.Frame
import proofs.«124191_j74457553044377_2_alg».proof.Proof.ArrayCov
import proofs.«124191_j74457553044377_2_alg».proof.Proof.HostLayout
import Idealize.ShloMosaic.Lib.StableHlo.Run
import Idealize.ShloMosaic.Lib.Pipeline.Value
import Idealize.ShloMosaic.PureOps.Ideal

set_option maxRecDepth 16384

noncomputable section

namespace Cert.KernelIdeal.Body

open Cert.KernelIdeal Cert.KernelIdeal.Gen Idealize.ShloMosaic Idealize.ShloMosaic.TcCoe Idealize.ShloMosaic.ValueIdx Cert.RowCov
open Idealize.SL.Sem Idealize.ShloMosaic.StableHlo
open Idealize.ShloMosaic.Pipeline (Dat Cfg Window)

variable (m : (ℓ : Loc nD τ sig) → Buf (Elt Ideal) ℓ) (ρ : Dev nD → PrngReg)

/-- The quaternions as the region finds them: padded, transposed, regrouped. -/
theorem V_rot (c : Dev nD) : (V m c main_v3 : S4x31744x128.Idx → EReal) = (shapeCast S4x31744x128 (transpose S4x4063232 [1, 0] (pad S4063232x4 ![0, 0] ![63232, 0] ![0, 0] (m ((c : Thread nD τ).loc main_arg0)) (sitofp (F := Ideal) FTy.f32 (constantI S_ 32 0#32)) pads_S4000000x4_S4063232x4_0632320_000 h_S_) transposes_S4063232x4_S4x4063232_1_0) shapeCasts_S4x4063232_S4x31744x128) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The scales as the region finds them. -/
theorem V_scl (c : Dev nD) : (V m c main_v5 : S3x31744x128.Idx → EReal) = (shapeCast S3x31744x128 (transpose S3x4063232 [1, 0] (pad S4063232x3 ![0, 0] ![63232, 0] ![0, 0] (m ((c : Thread nD τ).loc main_arg1)) (sitofp (F := Ideal) FTy.f32 (constantI S_ 32 0#32)) pads_S4000000x3_S4063232x3_0632320_000 h_S_) transposes_S4063232x3_S3x4063232_1_0) shapeCasts_S3x4063232_S3x31744x128) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The result buffer after the host operations that follow the region. -/
theorem tail_eq (c : Dev nD) : (Pipeline.afterTail₀ cfgs (dats m) 0 (V0 m) [hostOps1] c main_v10 : S4000000x3x3.Idx → EReal)
    = covRowsScaled (m ((c : Thread nD τ).loc main_arg0)) (m ((c : Thread nD τ).loc main_arg1)) := by
  have hw : Pipeline.withArrays (cfgs 0).spec c (V0 m c) (fun w => (dats m 0 c).arrAt w (cfgs 0).N) (Proc.devRef .tc main_v6)
      = arrayCov (V m c main_v3) (V m c main_v5) :=
    (Pipeline.withArrays_arr spec0 launch0.win.arr_inj c _ _ 2).trans (final m c)
  unfold Pipeline.afterTail₀
  show StableHlo.after hostOps1 _ (Proc.devRef .tc main_v10) = _
  after_results
  rw [hw, V_rot, V_scl]
  exact rows_of_layout _ _ _ _

/-- Every weakly fair execution of the idealised kernel terminates with the result at the row-by-row covariance
    of the arguments and the arguments unchanged. -/
theorem run : θ_run defs (onTc (τ := τ) (main (F := Ideal))) ⟨m, fun _ => 0, ρ⟩ fun r => ∀ c : Dev nD,
      r.2.mem ((c : Thread nD τ).loc main_v10) = covRowsScaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Body

end
-- ==== Proof.Domain.lean ====
/-
  What the precondition says about the quaternions.

  The precondition is a conjunction of three `all`s. The first says every entry of the quaternion array has
  absolute value below `+∞`: on the extended reals that is exactly being a real number. The third says that in
  every row zero plus the sum of the four squares is above zero: the radicand of the row's norm is positive, so
  the row is not the zero quaternion. (The second, the same finiteness for the scales, is not needed: no law used
  here moves a scale across a sum.)
-/
import proofs.«124191_j74457553044377_2_alg».proof.Pre_finite_inputs
import proofs.«124191_j74457553044377_2_alg».proof.Proof.RowCov
import Idealize.ShloMosaic.Lib.ReduceAll
import Idealize.ShloMosaic.Lib.Affine
import Idealize.ShloMosaic.Lib.ValueIdx
import Idealize.ShloMosaic.PureOps.Ideal.Laws

noncomputable section

namespace Cert.Domain

open Idealize.ShloMosaic Idealize.ShloMosaic.ValueIdx Cert.RowCov Cert.Pre_finite_inputs

variable [Cert.Pre_finite_inputs.Facts]
open Cert.Pre_finite_inputs.Facts

instance : Subsingleton Cert.Pre_finite_inputs.S_.Idx := ⟨fun a b => funext fun d => d.elim0⟩

theorem ofBool_one {b : Bool} (h : BitVec.ofBool b = 1#1) : b = true := by
  cases b
  · exact absurd h (by decide)
  · rfl

/-- The word of `+∞`. -/
theorem inf_eq_top : Ideal.ofBits .f32 0x7F800000#32 = ⊤ := by simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

theorem decode (x0 : FVec Ideal Cert.Pre_finite_inputs.S4000000x4 .f32) (x1 : FVec Ideal Cert.Pre_finite_inputs.S4000000x3 .f32)
    (h : Cert.Pre_finite_inputs.fn (F := Ideal) x0 x1 = fun _ => 1#1) :
    (∀ j, ∃ r : ℝ, x0 j = (r : EReal)) ∧
    (∀ n : Fin 4000000, Ideal.ofBits .f32 0x00000000#32 < Ideal.ofBits .f32 0x00000000#32 + ∑ k : Fin 4, quat x0 n k * quat x0 n k) := by
  have h0 := congrFun h ix0
  dsimp only [Cert.Pre_finite_inputs.fn] at h0
  obtain ⟨h8, h13⟩ := IntOp.andi_eq_one.mp h0
  obtain ⟨h3, -⟩ := IntOp.andi_eq_one.mp h8
  constructor
  · intro j
    have e := Host.reduce_andi_all _ _ _ _ ix0 h3 j
    have e2 : BitVec.ofBool (decide (max (x0 j) (-(x0 j)) < Ideal.ofBits .f32 0x7F800000#32)) = 1#1 := e
    have e3 := of_decide_eq_true (ofBool_one e2)
    rw [inf_eq_top] at e3
    exact real_of_abs_lt_top _ e3
  · intro n
    have e := Host.reduce_andi_all _ _ _ _ ix0 h13 (ix1 n)
    rw [cmpf_apply, Ideal.cmpf_def] at e
    simp only [Host.reduceAdd, Ideal.hostReduceAdd_def] at e
    rw [Ideal.hostReduceAdd_single reducesTo_S4000000x4_S4000000_d1 (by decide)] at e
    have e3 := of_decide_eq_true (ofBool_one e)
    refine lt_of_eq_of_lt (rfl : Ideal.ofBits .f32 0x00000000#32 = _) (lt_of_lt_of_eq e3 ?_)
    refine congrArg (Ideal.ofBits .f32 0x00000000#32 + ·) (Finset.sum_congr rfl fun k _ => ?_)
    exact congrArg (fun i => x0 i * x0 i) (funext fun a => Fin.ext (by match a with | ⟨0, _⟩ => rfl | ⟨1, _⟩ => rfl))

end Cert.Domain

end
-- ==== Proof.lean ====
/-
  Two programs that map a quaternion `q` and a scale `s` per row to the 3×3 matrix `(R S)(R S)ᵀ`, `R` the rotation
  of `q` normalised and `S = diag s`, for 4000000 rows.

  The kernel works on the arguments transposed to component-major and cut in blocks of 512 × 128 rows, and
  normalises by `q · rsqrt (w² + x² + y² + z²)`; the reference works row-major and normalises by
  `q / sqrt (0 + ∑ₖ qₖ²)`. Everything after the normalisation is the same polynomial in the same order on both
  sides. On the extended reals the two normalisations agree exactly when the four components are real numbers
  and the sum of their squares is positive (at the zero quaternion the first is `0 · ⊤ = 0`, the second `0 / 0`),
  and that is what the precondition states: every entry finite, every row's sum of squares positive.

  `RowCov` has the mathematics of one row and the one law; `RefQuat … RefRows` read the reference as
  `covRowsDivided`; `BodyPoint … KernelRows` read the kernel as `covRowsScaled`; `Domain` reads the precondition.
  The three frames are the generated ones (the reference's its generated run with the result dropped), and the
  idealisation rewrote nothing.
-/
import proofs.«124191_j74457553044377_2_alg».proof.Defs
import proofs.«124191_j74457553044377_2_alg».proof.Proof.Gen.Kernel
import proofs.«124191_j74457553044377_2_alg».proof.Proof.Gen.Kernel.Skeleton
import proofs.«124191_j74457553044377_2_alg».proof.Proof.Gen.Kernel.Launch
import proofs.«124191_j74457553044377_2_alg».proof.Proof.Gen.Kernel.Points
import proofs.«124191_j74457553044377_2_alg».proof.Proof.Gen.Kernel.Frame
import proofs.«124191_j74457553044377_2_alg».proof.Proof.Gen.KernelIdeal
import proofs.«124191_j74457553044377_2_alg».proof.Proof.Gen.KernelIdeal.Skeleton
import proofs.«124191_j74457553044377_2_alg».proof.Proof.Gen.KernelIdeal.Launch
import proofs.«124191_j74457553044377_2_alg».proof.Proof.Gen.KernelIdeal.Points
import proofs.«124191_j74457553044377_2_alg».proof.Proof.Gen.KernelIdeal.Frame
import proofs.«124191_j74457553044377_2_alg».proof.Proof.Gen.ReferenceIdeal
import proofs.«124191_j74457553044377_2_alg».proof.Proof.Gen.ReferenceIdeal.Run
import proofs.«124191_j74457553044377_2_alg».proof.Proof.Gen.ReferenceIdeal.Read
import proofs.«124191_j74457553044377_2_alg».proof.Proof.Gen.Pre_finite_inputs
import proofs.«124191_j74457553044377_2_alg».proof.Proof.RowCov
import proofs.«124191_j74457553044377_2_alg».proof.Proof.RefRows
import proofs.«124191_j74457553044377_2_alg».proof.Proof.KernelRows
import proofs.«124191_j74457553044377_2_alg».proof.Proof.Domain
import Idealize.ShloMosaic.Adequacy
import Idealize.ShloMosaic.Init

noncomputable section

namespace Cert.Proof

open Idealize.ShloMosaic Idealize.ShloMosaic.TcCoe Idealize.SL.Sem Cert.RowCov

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at one array: the kernel at `covRowsScaled` of the arguments, the reference at
    `covRowsDivided` of them, and under the precondition these are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => covRowsScaled (m ((c : Thread Cert.KernelIdeal.nD Cert.KernelIdeal.τ).loc Cert.KernelIdeal.main_arg0))
      (m ((c : Thread Cert.KernelIdeal.nD Cert.KernelIdeal.τ).loc Cert.KernelIdeal.main_arg1)), Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.ReferenceIdeal.RefRows.result_eq, (hagree c).1, (hagree c).2]
  obtain ⟨hreal, hpos⟩ := @Cert.Domain.decode Cert.Pre_finite_inputs.Gen.facts _ _ (hpre c)
  exact (covRowsScaled_eq_covRowsDivided _ _ hreal hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
